-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S4x2048x1024 .f32) (main_arg1 : FVec F S4x2048x1024 .f32) (main_arg2 : FVec F S4x2048x1024 .f32) (main_arg3 : FVec F S1024x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S4x2048x1024 .f32 := Host.absf main_arg2
  let main_cst_2 : FVec F S_ .f32 := constant S_ .f32 0x7F800000#32
  let main_v10 : FVec F S4x2048x1024 .f32 := broadcastInDim S4x2048x1024 ![] bcast_S_S4x2048x1024 main_cst_2
  let main_v11 : IVec S4x2048x1024 1 := cmpf .olt main_v9 main_v10
  let main_c_3 : IVec S_ 1 := constantI S_ 1 1#1
  let main_v12 : IVec S_ 1 := (fun x v => Host.reduce IntOp.andi x v reducesTo_S4x2048x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S4x2048x1024 : Shape := ⟨3, ![4, 2048, 1024]⟩
abbrev S1024x1024 : Shape := ⟨2, ![1024, 1024]⟩
abbrev S1x1024x1024 : Shape := ⟨3, ![1, 1024, 1024]⟩
abbrev S1x256x1024 : Shape := ⟨3, ![1, 256, 1024]⟩
abbrev S1024x1 : Shape := ⟨2, ![1024, 1]⟩
abbrev S256x1024 : Shape := ⟨2, ![256, 1024]⟩
abbrev S1024x256 : Shape := ⟨2, ![1024, 256]⟩
abbrev S1024 : Shape := ⟨1, ![1024]⟩
abbrev S512x1024 : Shape := ⟨2, ![512, 1024]⟩
abbrev S512x1 : Shape := ⟨2, ![512, 1]⟩
abbrev S1x512x1024 : Shape := ⟨3, ![1, 512, 1024]⟩

abbrev nBuf : Space → Nat
  | .hbm => 5
  | .vmem => 13
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S1024x1024, .f32⟩
  | .hbm, ⟨4, _⟩ => ⟨S4x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1024x1024, .f32⟩
  | .local _ .vmem, ⟨7, _⟩ => ⟨S1x1024x1024, .f32⟩
  | .local _ .vmem, ⟨8, _⟩ => ⟨S1x1024x1024, .f32⟩
  | .local _ .vmem, ⟨9, _⟩ => ⟨S1024x1, .f32⟩
  | .local _ .vmem, ⟨10, _⟩ => ⟨S1024x1, .f32⟩
  | .local _ .vmem, ⟨11, _⟩ => ⟨S1024x1024, .f32⟩
  | .local _ .vmem, ⟨12, _⟩ => ⟨S1024x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 2, 8], ![false, false, false]⟩

def k0_cond2 (i : grid0.Coords) : BitVec 1 :=
  let arg2 : BitVec 32 := BitVec.ofNat 32 (i 2).val
  let c7_i32 : BitVec 32 := 7#32
  let v43 : BitVec 1 := Scalar.cmpi .eq arg2 c7_i32
  let v44 : BitVec 32 := Scalar.extui v43
  let c0_i32_26 : BitVec 32 := 0#32
  let v45 : BitVec 1 := Scalar.cmpi .ne v44 c0_i32_26
  v45

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  packedbf16_S1024x1024_S1024x1024_0_0 : (Rect.unit (s := S1024x1024) ![0, 0] S1024x1024.size inb_S1024x1024_S1024x1024_0_0).PackedRows (EltTy.packing .bf16)
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  reduces_S1024x256_S1024 : S1024x256.Reduces [1] S1024
  shapeCasts_S1024_S1024x1 : S1024.ShapeCasts S1024x1
  broadcasts_S1024x1_S1024x256 : S1024x1.Broadcasts S1024x256
  broadcasts_S1024x1_S1024x1024 : S1024x1.Broadcasts S1024x1024
  inb_S1024x1024_S512x1024_0_0 : ∀ a, (![0, 0] : Fin 2 → Nat) a + S512x1024.size a ≤ S1024x1024.size a
  h_S512x1024 : 0 < S512x1024.numel
  inb_S1024x1_S512x1_0_0 : ∀ a, (![0, 0] : Fin 2 → Nat) a + S512x1.size a ≤ S1024x1.size a
  h_S512x1 : 0 < S512x1.numel
  broadcasts_S512x1_S512x1024 : S512x1.Broadcasts S512x1024
  inb_S1x1024x1024_S1x512x1024_0_0_0 : ∀ a, (![0, 0, 0] : Fin 3 → Nat) a + S1x512x1024.size a ≤ S1x1024x1024.size a
  h_S1x512x1024 : 0 < S1x512x1024.numel
  shapeCasts_S1x512x1024_S512x1024 : S1x512x1024.ShapeCasts S512x1024
  shapeCasts_S512x1024_S1x512x1024 : S512x1024.ShapeCasts S1x512x1024
  inb_S1024x1024_S512x1024_512_0 : ∀ a, (![512, 0] : Fin 2 → Nat) a + S512x1024.size a ≤ S1024x1024.size a
  inb_S1024x1_S512x1_512_0 : ∀ a, (![512, 0] : Fin 2 → Nat) a + S512x1.size a ≤ S1024x1.size a
  inb_S1x1024x1024_S1x512x1024_0_512_0 : ∀ a, (![0, 512, 0] : Fin 3 → Nat) a + S1x512x1024.size a ≤ S1x1024x1024.size a
  dot_S1024x1024_S256x1024_S1024x256_1_1_0_0_n_n_wf : DotDims.WF S1024x1024 S256x1024 S1024x256 [1] [1] [0] [0] [] []
  dot_S1024x256_S256x1024_S1024x1024_1_0_0_1_n_n_wf : DotDims.WF S1024x256 S256x1024 S1024x1024 [1] [0] [0] [1] [] []
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S4x2048x1024.size a
  hwx0_0 : ∀ i : grid0.Coords, EltTy.bits .f32 = 32 ∨ (Rect.block (s := S4x2048x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1024.size a ≤ S4x2048x1024.size a
  hwx0_1 : ∀ i : grid0.Coords, EltTy.bits .f32 = 32 ∨ (Rect.block (s := S4x2048x1024) S1x256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1024.size a ≤ S4x2048x1024.size a
  hwx0_2 : ∀ i : grid0.Coords, EltTy.bits .f32 = 32 ∨ (Rect.block (s := S4x2048x1024) S1x256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x1024.size a ≤ S4x2048x1024.size a
  hwx0_4 : ∀ i : grid0.Coords, EltTy.bits .f32 = 32 ∨ (Rect.block (s := S4x2048x1024) S1x1024x1024.size (cc0_transform_4 i) (hinb0_4 i)).WholeWords (EltTy.packing .f32)

variable [Facts₀]

def dot_S1024x1024_S256x1024_S1024x256_1_1_0_0_n_n : DotDims S1024x1024 S256x1024 S1024x256 where
  lhsContracting := [1]
  rhsContracting := [1]
  lhsNonContracting := [0]
  rhsNonContracting := [0]
  lhsBatch := []
  rhsBatch := []
  wf := dot_S1024x1024_S256x1024_S1024x256_1_1_0_0_n_n_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S_ : Shape := ⟨0, ![]⟩
abbrev S4x2048x2048 : Shape := ⟨3, ![4, 2048, 2048]⟩
abbrev S4x2048 : Shape := ⟨2, ![4, 2048]⟩
abbrev S4x2048x1 : Shape := ⟨3, ![4, 2048, 1]⟩

abbrev nBuf : Space → Nat
  | .hbm => 27
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S1024x1024, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4x2048x2048, .f32⟩
  | .hbm, ⟨9, _⟩ => ⟨S4x2048x2048, .f32⟩
  | .hbm, ⟨10, _⟩ => ⟨S4x2048x2048, .f32⟩
  | .hbm, ⟨11, _⟩ => ⟨S_, .f32⟩
  | .hbm, ⟨12, _⟩ => ⟨S4x2048, .f32⟩
  | .hbm, ⟨13, _⟩ => ⟨S_, .f32⟩
  | .hbm, ⟨14, _⟩ => ⟨S4x2048, .f32⟩
  | .hbm, ⟨15, _⟩ => ⟨S4x2048, .f32⟩
  | .hbm, ⟨16, _⟩ => ⟨S4x2048x1, .f32⟩
  | .hbm, ⟨17, _⟩ => ⟨S4x2048x2048, .f32⟩
  | .hbm, ⟨18, _⟩ => ⟨S4x2048x2048, .f32⟩
  | .hbm, ⟨19, _⟩ => ⟨S4x2048x2048, .f32⟩
  | .hbm, ⟨20, _⟩ => ⟨S_, .f32⟩
  | .hbm, ⟨21, _⟩ => ⟨S4x2048, .f32⟩
  | .hbm, ⟨22, _⟩ => ⟨S4x2048x1, .f32⟩
  | .hbm, ⟨23, _⟩ => ⟨S4x2048x2048, .f32⟩
  | .hbm, ⟨24, _⟩ => ⟨S4x2048x2048, .f32⟩
  | .hbm, ⟨25, _⟩ => ⟨S4x2048x1024, .f32⟩
  | .hbm, ⟨26, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]
  dot_S4x2048x1024_S1024x1024_S4x2048x1024_2_1_01_0_n_n_wf : DotDims.WF S4x2048x1024 S1024x1024 S4x2048x1024 [2] [1] [0, 1] [0] [] []

variable [Facts₀]

def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf
def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf

class Facts : Prop extends Facts₀ where

variable [Facts]
-- ==== Proof.Spec.lean ====
/-
  Softmax attention followed by a linear map, as one function of the four argument arrays, and the quantities its
  evaluation one key tile at a time carries.

  For a query row with scores `s j` against the 2048 keys and one column `v j` of the values, the attention output
  is the softmax-weighted mean `(∑ j, exp (s j) · v j) / (∑ j, exp (s j))` (`sm`). Shifting every score by the same
  real number changes neither numerator-to-denominator ratio, so the mean may be evaluated with any shift `μ`:
  `Asum … μ / Lsum … μ`, the sums taken over the first `T` tiles of 256 keys (`kt t c` is key `c` of tile `t`).
  The scores are the dot products of query and key rows over the 1024 features, scaled by 1/8; the result entry
  `(b, i, e)` is the dot product of row `i`'s attention output with row `e` of the weight matrix (`G`).
-/
import Idealize.ShloMosaic.PureOps.Ideal
import Idealize.ShloMosaic.Lib.ValueIdx

noncomputable section

namespace Attn

open Idealize.ShloMosaic Idealize.ShloMosaic.ValueIdx

/-- The denominator over the first `T` tiles of 256 keys, every score shifted by `μ`. -/
def Lsum (s : ℕ → Fin 256 → ℝ) (T : ℕ) (μ : ℝ) : ℝ :=
  ∑ t ∈ Finset.range T, ∑ c : Fin 256, Real.exp (s t c - μ)

/-- The numerator for one value column over the first `T` tiles, every score shifted by `μ`. -/
def Asum (s v : ℕ → Fin 256 → ℝ) (T : ℕ) (μ : ℝ) : ℝ :=
  ∑ t ∈ Finset.range T, ∑ c : Fin 256, Real.exp (s t c - μ) * v t c

/-- The softmax-weighted mean of `v` under the scores `s`. -/
def sm {n : ℕ} (s v : Fin n → ℝ) : ℝ := (∑ j, Real.exp (s j) * v j) / (∑ j, Real.exp (s j))

/-- Key `c` of tile `t` among 2048 keys in 8 tiles of 256 (the tile number read modulo 8, so that it is total). -/
def kt (t : ℕ) (c : Fin 256) : Fin 2048 :=
  ⟨(t % 8) * 256 + c.val, by have := c.isLt; have := Nat.mod_lt t (show 0 < 8 by decide); omega⟩

theorem kt_val (t : ℕ) (c : Fin 256) : (kt t c).val = (t % 8) * 256 + c.val := rfl

abbrev SQ : Shape := ⟨3, ![4, 2048, 1024]⟩
abbrev SW : Shape := ⟨2, ![1024, 1024]⟩

/-- The score of query row `i` against key row `j` in batch `b`: their dot product over the features, times 1/8. -/
def score (q k : SQ.Idx → EReal) (b : Fin 4) (i j : Fin 2048) : ℝ :=
  (∑ d : Fin 1024, (q (ix3 b i d)).toReal * (k (ix3 b j d)).toReal) * (1 / 8)

/-- Column `d` of the values of batch `b`, as reals. -/
def vcol (v : SQ.Idx → EReal) (b : Fin 4) (d : Fin 1024) (j : Fin 2048) : ℝ := (v (ix3 b j d)).toReal

/-- Row `i`'s attention output at feature `d`. -/
def attn (q k v : SQ.Idx → EReal) (b : Fin 4) (i : Fin 2048) (d : Fin 1024) : ℝ :=
  sm (fun j => score q k b i j) (vcol v b d)

/-- The result: attention output times the transposed weight matrix. -/
def G (q k v : SQ.Idx → EReal) (W : SW.Idx → EReal) : SQ.Idx → EReal := fun i =>
  ∑ d : Fin 1024, ((attn q k v (i 0) (i 1) d : ℝ) : EReal) * W (ix2 (i 2) d)

end Attn

end
-- ==== Proof.Blocks.lean ====
/-
  The geometry of the kernel's grid: which part of each argument array a point's blocks are, where the result's
  block is written back, and that the written blocks tile the result.

  The grid is 4 × 2 × 8, its 64 points in row-major order: point `t` is batch `t / 16`, query half `(t / 8) % 2` and key
  tile `t % 8`. A block's coordinate in its array is the block index times the block size plus the coordinate inside
  the block. The query block and the result block of a point are rows `qrow t r` of batch `bOf t`; the key and value
  blocks are rows `kt t k` of the same batch; the weight block is the whole matrix. The result's block is written back at
  the last key tile of each (batch, query half), and those 8 blocks of 1024 rows tile the 4 × 2048 rows.
-/
import proofs.«126389_j36077725286944_2_alg».proof.Proof.Gen.KernelIdeal.Frame
import proofs.«126389_j36077725286944_2_alg».proof.Proof.Spec
import Idealize.ShloMosaic.Lib.Pipeline.Value
import Idealize.ShloMosaic.Lib.ValueIdx

set_option maxRecDepth 16384

noncomputable section

namespace Attn.Grid

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ)

/-- The grid has 64 points. -/
theorem lt64 (t : Fin cfg0.N) : t.val < 64 := lt_of_lt_of_eq t.isLt N_0

/-- The batch of point `t`. -/
def bOf (t : Fin cfg0.N) : Fin 4 := ⟨t.val / 16, by have := lt64 t; omega⟩

/-- Row `r` of point `t`'s query half, among the 2048 rows. -/
def qrow (t : Fin cfg0.N) (r : Fin 1024) : Fin 2048 := ⟨((t.val / 8) % 2) * 1024 + r.val, by have := r.isLt; omega⟩

theorem bOf_val (t : Fin cfg0.N) : (bOf t).val = t.val / 16 := rfl

theorem qrow_val (t : Fin cfg0.N) (r : Fin 1024) : (qrow t r).val = ((t.val / 8) % 2) * 1024 + r.val := rfl

/-- The query block of point `t`: rows `qrow t r` of batch `bOf t`. -/
theorem iblk0_apply (c : Dev nD) (t : Fin cfg0.N) (r d : Fin 1024) :
    (iblk m c 0 t : Vec Ideal S1x1024x1024 .f32) (ix3 (0 : Fin 1) r d)
      = (m ((c : Thread nD τ).loc main_arg0) : S4x2048x1024.Idx → EReal) (ix3 (bOf t) (qrow t r) d) := by
  -- the window's block index at each point, decided over the grid
  have hi : ∀ t : Fin cfg0.N, win0_0.index t 0 = t.val / 16 ∧ win0_0.index t 1 = (t.val / 8) % 2 ∧ win0_0.index t 2 = 0 :=
    (by decide +kernel : ∀ t : Fin grid0.N, _)
  unfold iblk
  rw [View.read_apply]
  show V m c main_arg0 _ = _
  unfold V
  refine congrArg _ ?_
  -- coordinate by coordinate: block index times block size plus the coordinate inside the block
  funext a; apply Fin.ext
  match a with
  | ⟨0, _⟩ => show win0_0.index t 0 * 1 + 1 * (0 : Fin 1).val = t.val / 16; rw [(hi t).1]; omega
  | ⟨1, _⟩ => show win0_0.index t 1 * 1024 + 1 * r.val = ((t.val / 8) % 2) * 1024 + r.val; rw [(hi t).2.1]; omega
  | ⟨2, _⟩ => show win0_0.index t 2 * 1024 + 1 * d.val = d.val; rw [(hi t).2.2]; omega

/-- The key block of point `t`: the rows of key tile `t % 8` of batch `bOf t`. -/
theorem iblk1_apply (c : Dev nD) (t : Fin cfg0.N) (k : Fin 256) (d : Fin 1024) :
    (iblk m c 1 t : Vec Ideal S1x256x1024 .f32) (ix3 (0 : Fin 1) k d)
      = (m ((c : Thread nD τ).loc main_arg1) : S4x2048x1024.Idx → EReal) (ix3 (bOf t) (Attn.kt t.val k) d) := by
  -- the window's block index at each point, decided over the grid
  have hi : ∀ t : Fin cfg0.N, win0_1.index t 0 = t.val / 16 ∧ win0_1.index t 1 = t.val % 8 ∧ win0_1.index t 2 = 0 :=
    (by decide +kernel : ∀ t : Fin grid0.N, _)
  unfold iblk
  rw [View.read_apply]
  show V m c main_arg1 _ = _
  unfold V
  refine congrArg _ ?_
  -- coordinate by coordinate: block index times block size plus the coordinate inside the block
  funext a; apply Fin.ext
  match a with
  | ⟨0, _⟩ => show win0_1.index t 0 * 1 + 1 * (0 : Fin 1).val = t.val / 16; rw [(hi t).1]; omega
  | ⟨1, _⟩ => show win0_1.index t 1 * 256 + 1 * k.val = (t.val % 8) * 256 + k.val; rw [(hi t).2.1]; omega
  | ⟨2, _⟩ => show win0_1.index t 2 * 1024 + 1 * d.val = d.val; rw [(hi t).2.2]; omega

/-- The value block of point `t`: the rows of key tile `t % 8` of batch `bOf t`. -/
theorem iblk2_apply (c : Dev nD) (t : Fin cfg0.N) (k : Fin 256) (d : Fin 1024) :
    (iblk m c 2 t : Vec Ideal S1x256x1024 .f32) (ix3 (0 : Fin 1) k d)
      = (m ((c : Thread nD τ).loc main_arg2) : S4x2048x1024.Idx → EReal) (ix3 (bOf t) (Attn.kt t.val k) d) := by
  -- the window's block index at each point, decided over the grid
  have hi : ∀ t : Fin cfg0.N, win0_2.index t 0 = t.val / 16 ∧ win0_2.index t 1 = t.val % 8 ∧ win0_2.index t 2 = 0 :=
    (by decide +kernel : ∀ t : Fin grid0.N, _)
  unfold iblk
  rw [View.read_apply]
  show V m c main_arg2 _ = _
  unfold V
  refine congrArg _ ?_
  -- coordinate by coordinate: block index times block size plus the coordinate inside the block
  funext a; apply Fin.ext
  match a with
  | ⟨0, _⟩ => show win0_2.index t 0 * 1 + 1 * (0 : Fin 1).val = t.val / 16; rw [(hi t).1]; omega
  | ⟨1, _⟩ => show win0_2.index t 1 * 256 + 1 * k.val = (t.val % 8) * 256 + k.val; rw [(hi t).2.1]; omega
  | ⟨2, _⟩ => show win0_2.index t 2 * 1024 + 1 * d.val = d.val; rw [(hi t).2.2]; omega

/-- The weight block of every point is the whole weight matrix. -/
theorem iblk3_apply (c : Dev nD) (t : Fin cfg0.N) (e d : Fin 1024) :
    (iblk m c 3 t : Vec Ideal S1024x1024 .f32) (ix2 e d)
      = (m ((c : Thread nD τ).loc main_arg3) : S1024x1024.Idx → EReal) (ix2 e d) := by
  -- the window's block index is 0 on both axes at every point, decided over the grid
  have hi : ∀ t : Fin cfg0.N, win0_3.index t 0 = 0 ∧ win0_3.index t 1 = 0 :=
    (by decide +kernel : ∀ t : Fin grid0.N, _)
  unfold iblk
  rw [View.read_apply]
  show V m c main_arg3 _ = _
  unfold V
  refine congrArg _ ?_
  funext a; apply Fin.ext
  match a with
  | ⟨0, _⟩ => show win0_3.index t 0 * 1024 + 1 * e.val = e.val; rw [(hi t).1]; omega
  | ⟨1, _⟩ => show win0_3.index t 1 * 1024 + 1 * d.val = d.val; rw [(hi t).2]; omega

/-- The result's block is written back at the last key tile of each (batch, query half). -/
theorem flush4_iff (t : Fin cfg0.N) : (cfg0.win 4).flush t = true ↔ t.val % 8 = 7 := by
  exact flush0_4 t

/-- The result's block of point `t`, read off contents `G` of the result array: rows `qrow t r` of batch `bOf t`. -/
theorem read_blk4 (G : S4x2048x1024.Idx → EReal) (t : Fin cfg0.N) (r e : Fin 1024) :
    (((cfg0.win 4).blk t).view.read (Elt Ideal) G : Vec Ideal S1x1024x1024 .f32) (ix3 (0 : Fin 1) r e)
      = G (ix3 (bOf t) (qrow t r) e) := by
  -- the window's block index at each point, decided over the grid
  have hi : ∀ t : Fin cfg0.N, win0_4.index t 0 = t.val / 16 ∧ win0_4.index t 1 = (t.val / 8) % 2 ∧ win0_4.index t 2 = 0 :=
    (by decide +kernel : ∀ t : Fin grid0.N, _)
  rw [View.read_apply]
  show G _ = G _
  refine congrArg G ?_
  funext a; apply Fin.ext
  match a with
  | ⟨0, _⟩ => show win0_4.index t 0 * 1 + 1 * (0 : Fin 1).val = t.val / 16; rw [(hi t).1]; omega
  | ⟨1, _⟩ => show win0_4.index t 1 * 1024 + 1 * r.val = ((t.val / 8) % 2) * 1024 + r.val; rw [(hi t).2.1]; omega
  | ⟨2, _⟩ => show win0_4.index t 2 * 1024 + 1 * e.val = e.val; rw [(hi t).2.2]; omega

/-- The result's blocks lie inside the array: a write-back writes all of the block. -/
theorem cut4 (t : Fin cfg0.N) (X : Vec Ideal S1x1024x1024 .f32) : (cfg0.win 4).cut (grid0.coords t) X = X := by
  rfl

/-- Every entry of the result lies in the block of a point that writes back: the last key tile of its batch and
    query half. -/
theorem cover4 (i : S4x2048x1024.Idx) :
    ∃ t : Fin cfg0.N, (cfg0.win 4).flush t = true ∧ i ∈ ((cfg0.win 4).blk t).view.set := by
  have hi : ∀ t : Fin cfg0.N, win0_4.index t 0 = t.val / 16 ∧ win0_4.index t 1 = (t.val / 8) % 2 ∧ win0_4.index t 2 = 0 :=
    (by decide +kernel : ∀ t : Fin grid0.N, _)
  have h0 : (i 0).val < 4 := (i 0).isLt
  have h1 : (i 1).val < 2048 := (i 1).isLt
  have h2 : (i 2).val < 1024 := (i 2).isLt
  -- the point: the entry's batch, the half its row lies in, the last key tile
  obtain ⟨t, ht⟩ : ∃ t : Fin cfg0.N, t.val = (i 0).val * 16 + ((i 1).val / 1024) * 8 + 7 :=
    ⟨⟨(i 0).val * 16 + ((i 1).val / 1024) * 8 + 7, lt_of_lt_of_eq (by omega) N_0.symm⟩, rfl⟩
  refine ⟨t, (flush0_4 t).2 (by omega), ?_⟩
  show i ∈ ((View.whole main_v0).slice (win0_4.rect t)).set
  rw [View.set_slice_whole, Rect.mem_set_unit]
  intro a
  match a with
  | ⟨0, _⟩ =>
    show win0_4.index t 0 * 1 ≤ (i 0).val ∧ (i 0).val < win0_4.index t 0 * 1 + 1
    rw [(hi t).1]; omega
  | ⟨1, _⟩ =>
    show win0_4.index t 1 * 1024 ≤ (i 1).val ∧ (i 1).val < win0_4.index t 1 * 1024 + 1024
    rw [(hi t).2.1]; omega
  | ⟨2, _⟩ =>
    show win0_4.index t 2 * 1024 ≤ (i 2).val ∧ (i 2).val < win0_4.index t 2 * 1024 + 1024
    rw [(hi t).2.2]; omega

end Attn.Grid

end
-- ==== Proof.Pieces.lean ====
/-
  What one grid point leaves in the scratch buffers it carries to the next, as functions of what it loaded.

  Every store of the body covers its whole buffer, so what a buffer holds afterwards is the last value stored, and
  every load reads a whole buffer: the point's blocks of keys and values, the query block cast once at the first key
  tile, and the running maximum, denominator and numerator left by the point before.
-/
import proofs.«126389_j36077725286944_2_alg».proof.Proof.Gen.KernelIdeal.Frame
import Idealize.ShloMosaic.Lib.Pipeline.Value
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## The first key tile -/

/-- After the first key tile the maximum scratch holds the maximum of minus infinity and the tile's scores. -/
theorem sA0 (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S1024x1024 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .bf16) (harg11 : arg11.IsWhole) (hc0 : cond0_0 i) (hc1 : ¬cond0_1 i)
    (x0 : Vec F S1x1024x1024 .f32) (x1 : Vec F S1x256x1024 .f32) (x2 : Vec F S1x256x1024 .f32) (x3 : Vec F S1024x1024 .f32) :
    sout0_A_0 c i arg3 harg3 arg4 harg4 arg5 harg5 arg6 harg6 arg7 harg7 arg8 harg8 arg9 harg9 arg10 harg10 arg11 harg11 hc0 hc1 x0 x1 x2 x3 = k0_pay2 (k0_pay12 (k0_pay9 x0) x1 k0_pay6) := by
  unfold sout0_A_0
  rw [View.read_writes_eq_canon _ _ _ (scover0_A_0 c i arg3 harg3 arg4 harg4 arg5 harg5 arg6 harg6 arg7 harg7 arg8 harg8 arg9 harg9 arg10 harg10 arg11 harg11 hc0 hc1 x0 x1 x2 x3)]
  unfold kernelRun0_A
  dsimp only
  sl_unfold_words
  rw [View.canon_cons_unit_zero (S := S1024x1) hz2]
  simp only [View.readCov_unit_zero (S := S1024x1) _ hz2, View.readCov_unit_zero (S := S1024x1024) _ hz2, View.readAt_eq_ld, harg3.read_unread, harg4.read_unread, harg5.read_unread, harg6.read_unread, View.ld_unit_zero (S := S1024x1) hz2, View.ld_unit_zero (S := S1024x1024) hz2, View.ld_unit_zero (S := S1x256x1024) hz3, View.ld_unit_zero (S := S1x1024x1024) hz3]

/-- After the first key tile the denominator scratch holds the rescaled zero plus the tile's weights. -/
theorem sA1 (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S1024x1024 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .bf16) (harg11 : arg11.IsWhole) (hc0 : cond0_0 i) (hc1 : ¬cond0_1 i)
    (x0 : Vec F S1x1024x1024 .f32) (x1 : Vec F S1x256x1024 .f32) (x2 : Vec F S1x256x1024 .f32) (x3 : Vec F S1024x1024 .f32) :
    sout0_A_1 c i arg3 harg3 arg4 harg4 arg5 harg5 arg6 harg6 arg7 harg7 arg8 harg8 arg9 harg9 arg10 harg10 arg11 harg11 hc0 hc1 x0 x1 x2 x3 = k0_pay15 (k0_pay9 x0) x1 k0_pay6 k0_pay6 k0_pay7 := by
  unfold sout0_A_1
  rw [View.read_writes_eq_canon _ _ _ (scover0_A_1 c i arg3 harg3 arg4 harg4 arg5 harg5 arg6 harg6 arg7 harg7 arg8 harg8 arg9 harg9 arg10 harg10 arg11 harg11 hc0 hc1 x0 x1 x2 x3)]
  unfold kernelRun0_A
  dsimp only
  sl_unfold_words
  rw [View.canon_cons_unit_zero (S := S1024x1) hz2]
  simp only [View.readCov_unit_zero (S := S1024x1) _ hz2, View.readCov_unit_zero (S := S1024x1024) _ hz2, View.readAt_eq_ld, harg3.read_unread, harg4.read_unread, harg5.read_unread, harg6.read_unread, View.ld_unit_zero (S := S1024x1) hz2, View.ld_unit_zero (S := S1024x1024) hz2, View.ld_unit_zero (S := S1x256x1024) hz3, View.ld_unit_zero (S := S1x1024x1024) hz3]

/-- After the first key tile the numerator scratch holds the rescaled zero plus the tile's weighted values. -/
theorem sA2 (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S1024x1024 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .bf16) (harg11 : arg11.IsWhole) (hc0 : cond0_0 i) (hc1 : ¬cond0_1 i)
    (x0 : Vec F S1x1024x1024 .f32) (x1 : Vec F S1x256x1024 .f32) (x2 : Vec F S1x256x1024 .f32) (x3 : Vec F S1024x1024 .f32) :
    sout0_A_2 c i arg3 harg3 arg4 harg4 arg5 harg5 arg6 harg6 arg7 harg7 arg8 harg8 arg9 harg9 arg10 harg10 arg11 harg11 hc0 hc1 x0 x1 x2 x3 = k0_pay1 (k0_pay10 x2) (k0_pay13 (k0_pay9 x0) x1 k0_pay6 k0_pay6) (k0_pay14 (k0_pay9 x0) x1 k0_pay6) k0_pay8 := by
  unfold sout0_A_2
  rw [View.read_writes_eq_canon _ _ _ (scover0_A_2 c i arg3 harg3 arg4 harg4 arg5 harg5 arg6 harg6 arg7 harg7 arg8 harg8 arg9 harg9 arg10 harg10 arg11 harg11 hc0 hc1 x0 x1 x2 x3)]
  unfold kernelRun0_A
  dsimp only
  sl_unfold_words
  rw [View.canon_cons_unit_zero (S := S1024x1024) hz2]
  simp only [View.readCov_unit_zero (S := S1024x1) _ hz2, View.readCov_unit_zero (S := S1024x1024) _ hz2, View.readAt_eq_ld, harg3.read_unread, harg4.read_unread, harg5.read_unread, harg6.read_unread, View.ld_unit_zero (S := S1024x1) hz2, View.ld_unit_zero (S := S1024x1024) hz2, View.ld_unit_zero (S := S1x256x1024) hz3, View.ld_unit_zero (S := S1x1024x1024) hz3]

/-- The first key tile stores the query block, cast once, for the later tiles. -/
theorem sA3 (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S1024x1024 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .bf16) (harg11 : arg11.IsWhole) (hc0 : cond0_0 i) (hc1 : ¬cond0_1 i)
    (x0 : Vec F S1x1024x1024 .f32) (x1 : Vec F S1x256x1024 .f32) (x2 : Vec F S1x256x1024 .f32) (x3 : Vec F S1024x1024 .f32) :
    sout0_A_3 c i arg3 harg3 arg4 harg4 arg5 harg5 arg6 harg6 arg7 harg7 arg8 harg8 arg9 harg9 arg10 harg10 arg11 harg11 hc0 hc1 x0 x1 x2 x3 = k0_pay9 x0 := by
  unfold sout0_A_3
  rw [View.read_writes_eq_canon _ _ _ (scover0_A_3 c i arg3 harg3 arg4 harg4 arg5 harg5 arg6 harg6 arg7 harg7 arg8 harg8 arg9 harg9 arg10 harg10 arg11 harg11 hc0 hc1 x0 x1 x2 x3)]
  unfold kernelRun0_A
  dsimp only
  sl_unfold_words
  rw [View.canon_unit_zero (S := S1024x1024) hz2]
  simp only [View.readCov_unit_zero (S := S1024x1) _ hz2, View.readCov_unit_zero (S := S1024x1024) _ hz2, View.readAt_eq_ld, harg3.read_unread, harg4.read_unread, harg5.read_unread, harg6.read_unread, View.ld_unit_zero (S := S1024x1) hz2, View.ld_unit_zero (S := S1024x1024) hz2, View.ld_unit_zero (S := S1x256x1024) hz3, View.ld_unit_zero (S := S1x1024x1024) hz3]

/-! ## A key tile that is neither the first nor the last -/

/-- After a later key tile the maximum scratch holds the new running maximum of the old one and the tile's scores. -/
theorem sB0 (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S1024x1024 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .bf16) (harg11 : arg11.IsWhole) (hc0 : ¬cond0_0 i) (hc1 : ¬cond0_1 i)
    (x0 : Vec F S1x1024x1024 .f32) (x1 : Vec F S1x256x1024 .f32) (x2 : Vec F S1x256x1024 .f32) (x3 : Vec F S1024x1024 .f32) (xs0 : Vec F S1024x1 .f32) (xs1 : Vec F S1024x1 .f32) (xs2 : Vec F S1024x1024 .f32) (xs3 : Vec F S1024x1024 .bf16) :
    sout0_B_0 c i arg3 harg3 arg4 harg4 arg5 harg5 arg6 harg6 arg7 harg7 arg8 harg8 arg9 harg9 arg10 harg10 arg11 harg11 hc0 hc1 x0 x1 x2 x3 xs0 xs1 xs2 xs3 = k0_pay2 (k0_pay12 xs3 x1 xs0) := by
  unfold sout0_B_0
  rw [View.read_writes_eq_canon _ _ _ (scover0_B_0 c i arg3 harg3 arg4 harg4 arg5 harg5 arg6 harg6 arg7 harg7 arg8 harg8 arg9 harg9 arg10 harg10 arg11 harg11 hc0 hc1 x0 x1 x2 x3 xs0 xs1 xs2 xs3)]
  unfold kernelRun0_B
  dsimp only
  sl_unfold_words
  rw [View.canon_unit_zero hz2]
  simp only [View.readAt_eq_ld, harg3.read_unread, harg4.read_unread, harg5.read_unread, harg6.read_unread, harg8.read_unread, harg9.read_unread, harg10.read_unread, harg11.read_unread, View.ld_unit_zero (S := S1024x1) hz2, View.ld_unit_zero (S := S1024x1024) hz2, View.ld_unit_zero (S := S1x256x1024) hz3, View.ld_unit_zero (S := S1x1024x1024) hz3]

/-- After a later key tile the denominator scratch holds the rescaled old denominator plus the tile's weights. -/
theorem sB1 (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S1024x1024 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .bf16) (harg11 : arg11.IsWhole) (hc0 : ¬cond0_0 i) (hc1 : ¬cond0_1 i)
    (x0 : Vec F S1x1024x1024 .f32) (x1 : Vec F S1x256x1024 .f32) (x2 : Vec F S1x256x1024 .f32) (x3 : Vec F S1024x1024 .f32) (xs0 : Vec F S1024x1 .f32) (xs1 : Vec F S1024x1 .f32) (xs2 : Vec F S1024x1024 .f32) (xs3 : Vec F S1024x1024 .bf16) :
    sout0_B_1 c i arg3 harg3 arg4 harg4 arg5 harg5 arg6 harg6 arg7 harg7 arg8 harg8 arg9 harg9 arg10 harg10 arg11 harg11 hc0 hc1 x0 x1 x2 x3 xs0 xs1 xs2 xs3 = k0_pay15 xs3 x1 xs0 xs0 xs1 := by
  unfold sout0_B_1
  rw [View.read_writes_eq_canon _ _ _ (scover0_B_1 c i arg3 harg3 arg4 harg4 arg5 harg5 arg6 harg6 arg7 harg7 arg8 harg8 arg9 harg9 arg10 harg10 arg11 harg11 hc0 hc1 x0 x1 x2 x3 xs0 xs1 xs2 xs3)]
  unfold kernelRun0_B
  dsimp only
  sl_unfold_words
  rw [View.canon_unit_zero hz2]
  simp only [View.readAt_eq_ld, harg3.read_unread, harg4.read_unread, harg5.read_unread, harg6.read_unread, harg8.read_unread, harg9.read_unread, harg10.read_unread, harg11.read_unread, View.ld_unit_zero (S := S1024x1) hz2, View.ld_unit_zero (S := S1024x1024) hz2, View.ld_unit_zero (S := S1x256x1024) hz3, View.ld_unit_zero (S := S1x1024x1024) hz3]

/-- After a later key tile the numerator scratch holds the rescaled old numerator plus the tile's weighted values. -/
theorem sB2 (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S1024x1024 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .bf16) (harg11 : arg11.IsWhole) (hc0 : ¬cond0_0 i) (hc1 : ¬cond0_1 i)
    (x0 : Vec F S1x1024x1024 .f32) (x1 : Vec F S1x256x1024 .f32) (x2 : Vec F S1x256x1024 .f32) (x3 : Vec F S1024x1024 .f32) (xs0 : Vec F S1024x1 .f32) (xs1 : Vec F S1024x1 .f32) (xs2 : Vec F S1024x1024 .f32) (xs3 : Vec F S1024x1024 .bf16) :
    sout0_B_2 c i arg3 harg3 arg4 harg4 arg5 harg5 arg6 harg6 arg7 harg7 arg8 harg8 arg9 harg9 arg10 harg10 arg11 harg11 hc0 hc1 x0 x1 x2 x3 xs0 xs1 xs2 xs3 = k0_pay1 (k0_pay10 x2) (k0_pay13 xs3 x1 xs0 xs0) (k0_pay14 xs3 x1 xs0) xs2 := by
  unfold sout0_B_2
  rw [View.read_writes_eq_canon _ _ _ (scover0_B_2 c i arg3 harg3 arg4 harg4 arg5 harg5 arg6 harg6 arg7 harg7 arg8 harg8 arg9 harg9 arg10 harg10 arg11 harg11 hc0 hc1 x0 x1 x2 x3 xs0 xs1 xs2 xs3)]
  unfold kernelRun0_B
  dsimp only
  sl_unfold_words
  rw [View.canon_unit_zero hz2]
  simp only [View.readAt_eq_ld, harg3.read_unread, harg4.read_unread, harg5.read_unread, harg6.read_unread, harg8.read_unread, harg9.read_unread, harg10.read_unread, harg11.read_unread, View.ld_unit_zero (S := S1024x1) hz2, View.ld_unit_zero (S := S1024x1024) hz2, View.ld_unit_zero (S := S1x256x1024) hz3, View.ld_unit_zero (S := S1x1024x1024) hz3]

/-! ## The last key tile -/

/-- After a later key tile the maximum scratch holds the new running maximum of the old one and the tile's scores. -/
theorem sC0 (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S1024x1024 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .bf16) (harg11 : arg11.IsWhole) (hc0 : ¬cond0_0 i) (hc1 : cond0_1 i)
    (x0 : Vec F S1x1024x1024 .f32) (x1 : Vec F S1x256x1024 .f32) (x2 : Vec F S1x256x1024 .f32) (x3 : Vec F S1024x1024 .f32) (xs0 : Vec F S1024x1 .f32) (xs1 : Vec F S1024x1 .f32) (xs2 : Vec F S1024x1024 .f32) (xs3 : Vec F S1024x1024 .bf16) :
    sout0_C_0 c i arg3 harg3 arg4 harg4 arg5 harg5 arg6 harg6 arg7 harg7 arg8 harg8 arg9 harg9 arg10 harg10 arg11 harg11 hc0 hc1 x0 x1 x2 x3 xs0 xs1 xs2 xs3 = k0_pay2 (k0_pay12 xs3 x1 xs0) := by
  unfold sout0_C_0
  rw [View.read_writes_eq_canon _ _ _ (scover0_C_0 c i arg3 harg3 arg4 harg4 arg5 harg5 arg6 harg6 arg7 harg7 arg8 harg8 arg9 harg9 arg10 harg10 arg11 harg11 hc0 hc1 x0 x1 x2 x3 xs0 xs1 xs2 xs3)]
  unfold kernelRun0_C
  dsimp only
  sl_unfold_words
  rw [View.canon_unit_zero hz2]
  simp only [View.readAt_eq_ld, harg3.read_unread, harg4.read_unread, harg5.read_unread, harg6.read_unread, harg8.read_unread, harg9.read_unread, harg10.read_unread, harg11.read_unread, View.ld_unit_zero (S := S1024x1) hz2, View.ld_unit_zero (S := S1024x1024) hz2, View.ld_unit_zero (S := S1x256x1024) hz3, View.ld_unit_zero (S := S1x1024x1024) hz3]

/-- After a later key tile the denominator scratch holds the rescaled old denominator plus the tile's weights. -/
theorem sC1 (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S1024x1024 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .bf16) (harg11 : arg11.IsWhole) (hc0 : ¬cond0_0 i) (hc1 : cond0_1 i)
    (x0 : Vec F S1x1024x1024 .f32) (x1 : Vec F S1x256x1024 .f32) (x2 : Vec F S1x256x1024 .f32) (x3 : Vec F S1024x1024 .f32) (xs0 : Vec F S1024x1 .f32) (xs1 : Vec F S1024x1 .f32) (xs2 : Vec F S1024x1024 .f32) (xs3 : Vec F S1024x1024 .bf16) :
    sout0_C_1 c i arg3 harg3 arg4 harg4 arg5 harg5 arg6 harg6 arg7 harg7 arg8 harg8 arg9 harg9 arg10 harg10 arg11 harg11 hc0 hc1 x0 x1 x2 x3 xs0 xs1 xs2 xs3 = k0_pay15 xs3 x1 xs0 xs0 xs1 := by
  unfold sout0_C_1
  rw [View.read_writes_eq_canon _ _ _ (scover0_C_1 c i arg3 harg3 arg4 harg4 arg5 harg5 arg6 harg6 arg7 harg7 arg8 harg8 arg9 harg9 arg10 harg10 arg11 harg11 hc0 hc1 x0 x1 x2 x3 xs0 xs1 xs2 xs3)]
  unfold kernelRun0_C
  dsimp only
  sl_unfold_words
  rw [View.canon_unit_zero hz2]
  simp only [View.readAt_eq_ld, harg3.read_unread, harg4.read_unread, harg5.read_unread, harg6.read_unread, harg8.read_unread, harg9.read_unread, harg10.read_unread, harg11.read_unread, View.ld_unit_zero (S := S1024x1) hz2, View.ld_unit_zero (S := S1024x1024) hz2, View.ld_unit_zero (S := S1x256x1024) hz3, View.ld_unit_zero (S := S1x1024x1024) hz3]

/-- After a later key tile the numerator scratch holds the rescaled old numerator plus the tile's weighted values. -/
theorem sC2 (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S1024x1024 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .bf16) (harg11 : arg11.IsWhole) (hc0 : ¬cond0_0 i) (hc1 : cond0_1 i)
    (x0 : Vec F S1x1024x1024 .f32) (x1 : Vec F S1x256x1024 .f32) (x2 : Vec F S1x256x1024 .f32) (x3 : Vec F S1024x1024 .f32) (xs0 : Vec F S1024x1 .f32) (xs1 : Vec F S1024x1 .f32) (xs2 : Vec F S1024x1024 .f32) (xs3 : Vec F S1024x1024 .bf16) :
    sout0_C_2 c i arg3 harg3 arg4 harg4 arg5 harg5 arg6 harg6 arg7 harg7 arg8 harg8 arg9 harg9 arg10 harg10 arg11 harg11 hc0 hc1 x0 x1 x2 x3 xs0 xs1 xs2 xs3 = k0_pay1 (k0_pay10 x2) (k0_pay13 xs3 x1 xs0 xs0) (k0_pay14 xs3 x1 xs0) xs2 := by
  unfold sout0_C_2
  rw [View.read_writes_eq_canon _ _ _ (scover0_C_2 c i arg3 harg3 arg4 harg4 arg5 harg5 arg6 harg6 arg7 harg7 arg8 harg8 arg9 harg9 arg10 harg10 arg11 harg11 hc0 hc1 x0 x1 x2 x3 xs0 xs1 xs2 xs3)]
  unfold kernelRun0_C
  dsimp only
  sl_unfold_words
  rw [View.canon_unit_zero hz2]
  simp only [View.readAt_eq_ld, harg3.read_unread, harg4.read_unread, harg5.read_unread, harg6.read_unread, harg8.read_unread, harg9.read_unread, harg10.read_unread, harg11.read_unread, View.ld_unit_zero (S := S1024x1) hz2, View.ld_unit_zero (S := S1024x1024) hz2, View.ld_unit_zero (S := S1x256x1024) hz3, View.ld_unit_zero (S := S1x1024x1024) hz3]

end Cert.KernelIdeal.Gen

end
-- ==== Proof.LibColumns.lean ====
/-
  Columns and rows of a rank-2 array, read at an index given by coordinates.

  A row-wise computation on an `[a, b]` array keeps one value per row in a COLUMN, an array of shape `[a, 1]`:
  it cuts single columns out of the array, casts a vector of `a` row results to a column, and broadcasts a column
  back along the second axis. Each of these reads, at `(r, ·)`, one entry of its operand in row `r`:
  • column `o` cut out of `[a, b]` reads the array at `(r, o)` (`slice_col_apply`);
  • a vector `[a]` cast to a column `[a, 1]` reads entry `r` (`shapeCast_a_a1_apply`);
  • a column `[a, 1]` broadcast to `[a, b]` reads, at `(r, j)`, the column's entry `r` for every `j`
    (`broadcastTo_a1_ab_apply`).
  A reduction of `[a, b]` along its second axis reads, at row `r`, a fold over the row's `b` entries. Over the
  extended reals `min` and `max` commute and associate, so the order of the fold does not matter and a kernel's
  vector reduction and a host reduce of the same row are the same fold over `Fin b`, started from the
  accumulator's (the initial value's) extended real (`multiReduction_minimumf_row`, `multiReduction_maximumf_row`,
  `hostReduce_minimumf_row`, `hostReduce_maximumf_row`). The index that a row's result `r` and a coordinate `k`
  on the reduced axis name together is `(r, k)` (`lift_row`).
-/
import Idealize.ShloMosaic.Lib.ValueLayout
import Idealize.ShloMosaic.Lib.ValueIdx
import Idealize.ShloMosaic.Lib.Pipeline.Value
import Idealize.ShloMosaic.PureOps.Ideal.Laws
import Idealize.ShloMosaic.PureOps.Reduce

noncomputable section

namespace Cert.Columns

open Idealize.ShloMosaic Idealize.ShloMosaic.ValueIdx

variable {α : Type}

/-! ## Layout operations on columns -/

/-- Column `o` of an `[a, b]` array, cut out as a column `[a, 1]`, reads at `(r, u)` the array at `(r, o)`. -/
theorem slice_col_apply {a b : ℕ} (o : ℕ) (ho : o < b) (X : (⟨2, ![a, b]⟩ : Shape).Idx → α)
    (h : (⟨2, ![a, b]⟩ : Shape).Slices ![0, o] ⟨2, ![a, 1]⟩) (r : Fin a) (u : Fin 1) :
    extractStridedSlice ⟨2, ![a, 1]⟩ ![0, o] X h (ix2 r u) = X (ix2 r (⟨o, ho⟩ : Fin b)) :=
  slice2_axis1_apply o X h r u ⟨o, ho⟩ (by have := u.isLt; show o = o + u.val; omega)

/-- A vector of `a` entries cast to a column `[a, 1]` reads, at `(r, u)`, entry `r`: the two indices have the same
    row-major position `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- A column `[a, 1]` broadcast along the second axis to `[a, b]` reads, at `(r, j)`, the column's entry `r`. -/
theorem broadcastTo_a1_ab_apply {a b : ℕ} (v : (⟨2, ![a, 1]⟩ : Shape).Idx → α) (h : (⟨2, ![a, 1]⟩ : Shape).Broadcasts ⟨2, ![a, b]⟩)
    (r : Fin a) (j : Fin b) : broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

/-! ## A row's reduction along the second axis -/

/-- Row `r` of the reduced array with coordinate `k` put back on the reduced (second) axis is the index `(r, k)`. -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- A kernel's minimum reduction of an `[a, b]` array along its second axis, at the extended reals, read at row `r`:
    the fold of `min` from the accumulator's value over the row's `b` entries. -/
theorem multiReduction_minimumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.minimumf.neutral φ hφ) (r : Fin a) :
    multiReduction .minimumf [1] ⟨1, ![a]⟩ src acc h hφ hacc (ix1 r)
      = (Finset.univ : Finset (Fin b)).fold min (Ideal.ofBits φ acc) (fun k => src (ix2 r k)) := by
  rw [multiReduction_minimumf_eq_fold]
  refine (h.fold_filter_drop_single _ _ src (ix1 r)).trans ?_
  exact congrArg (fun f => Finset.fold min (Ideal.ofBits φ acc) f (Finset.univ : Finset (Fin b)))
    (funext fun k => congrArg src (lift_row h r k))

/-- The same for a maximum reduction: the fold of `max` over the row. -/
theorem multiReduction_maximumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  rw [multiReduction_maximumf_eq_fold]
  refine (h.fold_filter_drop_single _ _ src (ix1 r)).trans ?_
  exact congrArg (fun f => Finset.fold max (Ideal.ofBits φ acc) f (Finset.univ : Finset (Fin b)))
    (funext fun k => congrArg src (lift_row h r k))

/-- A host reduce with a minimum body of an `[a, b]` array along its second axis, from the scalar constant `w`, read
    at row `r`: the same fold of `min` over the row, from the extended real `w` denotes. -/
theorem hostReduce_minimumf_row {a b : ℕ} (x : FVec Ideal ⟨2, ![a, b]⟩ .f32) (w : BitVec 32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (r : Fin a) :
    Host.reduce FloatOps.minimumf x (constant (F := Ideal) (⟨0, ![]⟩ : Shape) .f32 w) h' hu (ix1 r)
      = (Finset.univ : Finset (Fin b)).fold min (Ideal.ofBits .f32 w) (fun k => x (ix2 r k)) := by
  rw [Host.reduce_eq_fold_single FloatOps.minimumf x _ h' h hu]
  exact congrArg (fun f => Finset.fold min (Ideal.ofBits .f32 w) f (Finset.univ : Finset (Fin b)))
    (funext fun k => congrArg x (lift_row h r k))

/-- The same for a maximum body: the fold of `max` over the row. -/
theorem hostReduce_maximumf_row {a b : ℕ} (x : FVec Ideal ⟨2, ![a, b]⟩ .f32) (w : BitVec 32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (r : Fin a) :
    Host.reduce FloatOps.maximumf x (constant (F := Ideal) (⟨0, ![]⟩ : Shape) .f32 w) h' hu (ix1 r)
      = (Finset.univ : Finset (Fin b)).fold max (Ideal.ofBits .f32 w) (fun k => x (ix2 r k)) := by
  rw [Host.reduce_eq_fold_single FloatOps.maximumf x _ h' h hu]
  exact congrArg (fun f => Finset.fold max (Ideal.ofBits .f32 w) f (Finset.univ : Finset (Fin b)))
    (funext fun k => congrArg x (lift_row h r k))

end Cert.Columns

end
-- ==== Proof.BodyReads.lean ====
/-
  The kernel body's arithmetic read entry by entry over the extended reals.

  One grid point sees a block of 1024 query rows (already cast, `v3`), a tile of 256 key rows (`v4`) and of 256 value
  rows, the running maximum (`v13`, `v17`: the same scratch read twice), the running denominator (`v23`) and the
  running numerator (`v31`). Row `r` of the block and key `c` of the tile give the score `(∑ d, q r d · k c d) · 1/8`;
  the new maximum of row `r` is the old one joined with the maximum of the tile's scores; the rescaling factor is
  `exp (old − new)`, the tile's weights are `exp (score − new)`; the new denominator is factor · old + the weights'
  sum, the new numerator at feature `d` is factor · old + ∑ c, weight r c · value c d. At the last tile each half
  of the rows is divided by its denominator and multiplied by the transposed weight matrix.
-/
import proofs.«126389_j36077725286944_2_alg».proof.Proof.Gen.KernelIdeal.Skeleton
import proofs.«126389_j36077725286944_2_alg».proof.Proof.LibColumns
import Idealize.ShloMosaic.Lib.ValueIdx
import Idealize.ShloMosaic.Lib.ValueLayout
import Idealize.ShloMosaic.Lib.Pipeline.Value
import Idealize.ShloMosaic.PureOps.Ideal.Laws

noncomputable section

namespace Attn.Body

open Idealize.ShloMosaic Idealize.ShloMosaic.ValueIdx Cert.KernelIdeal Cert.KernelIdeal.Gen

variable [Cert.KernelIdeal.Facts]

/-! ## The three contractions at an index -/

theorem dot_scores_lhs_non (i : S1024x256.Idx) (q : dot_S1024x1024_S256x1024_S1024x256_1_1_0_0_n_n.contr.Idx) :
    (dot_S1024x1024_S256x1024_S1024x256_1_1_0_0_n_n.lhsIdx i q 0).val = (i 0).val := by
  unfold DotDims.lhsIdx
  rw [dif_neg (show ¬(0 : Fin S1024x1024.rank) ∈ dot_S1024x1024_S256x1024_S1024x256_1_1_0_0_n_n.lhsBatch by decide),
    dif_pos (show (0 : Fin S1024x1024.rank) ∈ dot_S1024x1024_S256x1024_S1024x256_1_1_0_0_n_n.lhsNonContracting by decide)]
  rfl
theorem dot_scores_rhs_non (i : S1024x256.Idx) (q : dot_S1024x1024_S256x1024_S1024x256_1_1_0_0_n_n.contr.Idx) :
    (dot_S1024x1024_S256x1024_S1024x256_1_1_0_0_n_n.rhsIdx i q 0).val = (i 1).val := by
  unfold DotDims.rhsIdx
  rw [dif_neg (show ¬(0 : Fin S256x1024.rank) ∈ dot_S1024x1024_S256x1024_S1024x256_1_1_0_0_n_n.rhsBatch by decide),
    dif_pos (show (0 : Fin S256x1024.rank) ∈ dot_S1024x1024_S256x1024_S1024x256_1_1_0_0_n_n.rhsNonContracting by decide)]
  rfl
theorem dot_scores_lhs_con (i : S1024x256.Idx) (q : dot_S1024x1024_S256x1024_S1024x256_1_1_0_0_n_n.contr.Idx) :
    (dot_S1024x1024_S256x1024_S1024x256_1_1_0_0_n_n.lhsIdx i q 1).val = (q ⟨0, by decide⟩).val :=
  dot_S1024x1024_S256x1024_S1024x256_1_1_0_0_n_n.lhsIdx_val_of_single rfl i q
theorem dot_scores_rhs_con (i : S1024x256.Idx) (q : dot_S1024x1024_S256x1024_S1024x256_1_1_0_0_n_n.contr.Idx) :
    (dot_S1024x1024_S256x1024_S1024x256_1_1_0_0_n_n.rhsIdx i q 1).val = (q ⟨0, by decide⟩).val :=
  dot_S1024x1024_S256x1024_S1024x256_1_1_0_0_n_n.rhsIdx_val_of_single rfl i q

/-- Scores: row `r` of the left operand against row `c` of the right one, both contracted on their second axis. -/
theorem dot_scores_apply (A : FVec Ideal S1024x1024 .bf16) (B : FVec Ideal S256x1024 .bf16) (r : Fin 1024) (c : Fin 256) :
    matmul dot_S1024x1024_S256x1024_S1024x256_1_1_0_0_n_n none A B (constant (F := Ideal) S1024x256 .f32 0x00000000#32) (ix2 r c)
      = ∑ d : Fin 1024, A (ix2 r d) * B (ix2 c d) := by
  simp only [matmul]
  rw [Ideal.matmul_constant_zero_apply,
    ← Equiv.sum_comp (ValueIdx.contrEquiv1 dot_S1024x1024_S256x1024_S1024x256_1_1_0_0_n_n 1024 rfl rfl).symm]
  refine Finset.sum_congr rfl fun d _ => ?_
  have hk := ValueIdx.contrEquiv1_symm_val dot_S1024x1024_S256x1024_S1024x256_1_1_0_0_n_n 1024 rfl rfl d
  have el : dot_S1024x1024_S256x1024_S1024x256_1_1_0_0_n_n.lhsIdx (ix2 r c)
      ((ValueIdx.contrEquiv1 dot_S1024x1024_S256x1024_S1024x256_1_1_0_0_n_n 1024 rfl rfl).symm d) = ix2 r d :=
    funext fun a => Fin.ext (by
      match a with
      | ⟨0, _⟩ => exact dot_scores_lhs_non _ _
      | ⟨1, _⟩ => exact (dot_scores_lhs_con _ _).trans hk)
  have er : dot_S1024x1024_S256x1024_S1024x256_1_1_0_0_n_n.rhsIdx (ix2 r c)
      ((ValueIdx.contrEquiv1 dot_S1024x1024_S256x1024_S1024x256_1_1_0_0_n_n 1024 rfl rfl).symm d) = ix2 c d :=
    funext fun a => Fin.ext (by
      match a with
      | ⟨0, _⟩ => exact dot_scores_rhs_non _ _
      | ⟨1, _⟩ => exact (dot_scores_rhs_con _ _).trans hk)
  rw [el, er]

theorem dot_values_lhs_non (i : S1024x1024.Idx) (q : dot_S1024x256_S256x1024_S1024x1024_1_0_0_1_n_n.contr.Idx) :
    (dot_S1024x256_S256x1024_S1024x1024_1_0_0_1_n_n.lhsIdx i q 0).val = (i 0).val := by
  unfold DotDims.lhsIdx
  rw [dif_neg (show ¬(0 : Fin S1024x256.rank) ∈ dot_S1024x256_S256x1024_S1024x1024_1_0_0_1_n_n.lhsBatch by decide),
    dif_pos (show (0 : Fin S1024x256.rank) ∈ dot_S1024x256_S256x1024_S1024x1024_1_0_0_1_n_n.lhsNonContracting by decide)]
  rfl
theorem dot_values_rhs_non (i : S1024x1024.Idx) (q : dot_S1024x256_S256x1024_S1024x1024_1_0_0_1_n_n.contr.Idx) :
    (dot_S1024x256_S256x1024_S1024x1024_1_0_0_1_n_n.rhsIdx i q 1).val = (i 1).val := by
  unfold DotDims.rhsIdx
  rw [dif_neg (show ¬(1 : Fin S256x1024.rank) ∈ dot_S1024x256_S256x1024_S1024x1024_1_0_0_1_n_n.rhsBatch by decide),
    dif_pos (show (1 : Fin S256x1024.rank) ∈ dot_S1024x256_S256x1024_S1024x1024_1_0_0_1_n_n.rhsNonContracting by decide)]
  rfl
theorem dot_values_lhs_con (i : S1024x1024.Idx) (q : dot_S1024x256_S256x1024_S1024x1024_1_0_0_1_n_n.contr.Idx) :
    (dot_S1024x256_S256x1024_S1024x1024_1_0_0_1_n_n.lhsIdx i q 1).val = (q ⟨0, by decide⟩).val :=
  dot_S1024x256_S256x1024_S1024x1024_1_0_0_1_n_n.lhsIdx_val_of_single rfl i q
theorem dot_values_rhs_con (i : S1024x1024.Idx) (q : dot_S1024x256_S256x1024_S1024x1024_1_0_0_1_n_n.contr.Idx) :
    (dot_S1024x256_S256x1024_S1024x1024_1_0_0_1_n_n.rhsIdx i q 0).val = (q ⟨0, by decide⟩).val :=
  dot_S1024x256_S256x1024_S1024x1024_1_0_0_1_n_n.rhsIdx_val_of_single rfl i q

/-- Weights times values: row `r` of the left operand against column `c` of the right one. -/
theorem dot_values_apply (A : FVec Ideal S1024x256 .bf16) (B : FVec Ideal S256x1024 .bf16) (r : Fin 1024) (c : Fin 1024) :
    matmul dot_S1024x256_S256x1024_S1024x1024_1_0_0_1_n_n none A B (constant (F := Ideal) S1024x1024 .f32 0x00000000#32) (ix2 r c)
      = ∑ d : Fin 256, A (ix2 r d) * B (ix2 d c) := by
  simp only [matmul]
  rw [Ideal.matmul_constant_zero_apply,
    ← Equiv.sum_comp (ValueIdx.contrEquiv1 dot_S1024x256_S256x1024_S1024x1024_1_0_0_1_n_n 256 rfl rfl).symm]
  refine Finset.sum_congr rfl fun d _ => ?_
  have hk := ValueIdx.contrEquiv1_symm_val dot_S1024x256_S256x1024_S1024x1024_1_0_0_1_n_n 256 rfl rfl d
  have el : dot_S1024x256_S256x1024_S1024x1024_1_0_0_1_n_n.lhsIdx (ix2 r c)
      ((ValueIdx.contrEquiv1 dot_S1024x256_S256x1024_S1024x1024_1_0_0_1_n_n 256 rfl rfl).symm d) = ix2 r d :=
    funext fun a => Fin.ext (by
      match a with
      | ⟨0, _⟩ => exact dot_values_lhs_non _ _
      | ⟨1, _⟩ => exact (dot_values_lhs_con _ _).trans hk)
  have er : dot_S1024x256_S256x1024_S1024x1024_1_0_0_1_n_n.rhsIdx (ix2 r c)
      ((ValueIdx.contrEquiv1 dot_S1024x256_S256x1024_S1024x1024_1_0_0_1_n_n 256 rfl rfl).symm d) = ix2 d c :=
    funext fun a => Fin.ext (by
      match a with
      | ⟨1, _⟩ => exact dot_values_rhs_non _ _
      | ⟨0, _⟩ => exact (dot_values_rhs_con _ _).trans hk)
  rw [el, er]

theorem dot_proj_lhs_non (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide),
    dif_pos (show (0 : Fin S512x1024.rank) ∈ dot_S512x1024_S1024x1024_S512x1024_1_1_0_0_n_n.lhsNonContracting by decide)]
  rfl
theorem dot_proj_rhs_non (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide),
    dif_pos (show (0 : Fin S1024x1024.rank) ∈ dot_S512x1024_S1024x1024_S512x1024_1_1_0_0_n_n.rhsNonContracting by decide)]
  rfl
theorem dot_proj_lhs_con (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q
theorem dot_proj_rhs_con (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q

/-- Projection: row `r` of the left operand against row `c` of the right one, both contracted on their second axis. -/
theorem dot_proj_apply (A : FVec Ideal S512x1024 .bf16) (B : FVec Ideal S1024x1024 .bf16) (r : Fin 512) (c : Fin 1024) :
    matmul dot_S512x1024_S1024x1024_S512x1024_1_1_0_0_n_n none A B (constant (F := Ideal) S512x1024 .f32 0x00000000#32) (ix2 r c)
      = ∑ d : Fin 1024, A (ix2 r d) * B (ix2 c d) := by
  simp only [matmul]
  rw [Ideal.matmul_constant_zero_apply,
    ← Equiv.sum_comp (ValueIdx.contrEquiv1 dot_S512x1024_S1024x1024_S512x1024_1_1_0_0_n_n 1024 rfl rfl).symm]
  refine Finset.sum_congr rfl fun d _ => ?_
  have hk := ValueIdx.contrEquiv1_symm_val dot_S512x1024_S1024x1024_S512x1024_1_1_0_0_n_n 1024 rfl rfl d
  have el : dot_S512x1024_S1024x1024_S512x1024_1_1_0_0_n_n.lhsIdx (ix2 r c)
      ((ValueIdx.contrEquiv1 dot_S512x1024_S1024x1024_S512x1024_1_1_0_0_n_n 1024 rfl rfl).symm d) = ix2 r d :=
    funext fun a => Fin.ext (by
      match a with
      | ⟨0, _⟩ => exact dot_proj_lhs_non _ _
      | ⟨1, _⟩ => exact (dot_proj_lhs_con _ _).trans hk)
  have er : dot_S512x1024_S1024x1024_S512x1024_1_1_0_0_n_n.rhsIdx (ix2 r c)
      ((ValueIdx.contrEquiv1 dot_S512x1024_S1024x1024_S512x1024_1_1_0_0_n_n 1024 rfl rfl).symm d) = ix2 c d :=
    funext fun a => Fin.ext (by
      match a with
      | ⟨0, _⟩ => exact dot_proj_rhs_non _ _
      | ⟨1, _⟩ => exact (dot_proj_rhs_con _ _).trans hk)
  rw [el, er]

/-! ## The payloads at an index -/

/-- The scaled scores of the block's rows against the tile's keys. -/
theorem pay11_apply (v3 : Vec Ideal S1024x1024 .bf16) (v4 : Vec Ideal S1x256x1024 .f32) (r : Fin 1024) (c : Fin 256) :
    k0_pay11 (F := Ideal) v3 v4 (ix2 r c)
      = (∑ d : Fin 1024, v3 (ix2 r d) * v4 (ix3 (0 : Fin 1) c d)) * Ideal.ofBits .f32 0x3E000000#32 := by
  unfold k0_pay11
  show matmul dot_S1024x1024_S256x1024_S1024x256_1_1_0_0_n_n none v3
        (truncf .bf16 (shapeCast S256x1024 v4 _) _) (constant (F := Ideal) S1024x256 .f32 0x00000000#32) (ix2 r c)
      * Ideal.ofBits .f32 0x3E000000#32 = _
  rw [dot_scores_apply]
  refine congrArg (· * Ideal.ofBits .f32 0x3E000000#32) (Finset.sum_congr rfl fun d _ => ?_)
  show v3 (ix2 r d) * shapeCast S256x1024 v4 _ (ix2 c d) = _
  rw [shapeCast_1ab_ab_apply]

/-- The new running maximum of row `r`. -/
theorem pay12_apply (v3 : Vec Ideal S1024x1024 .bf16) (v4 : Vec Ideal S1x256x1024 .f32) (v13 : Vec Ideal S1024x1 .f32) (r : Fin 1024) :
    k0_pay12 (F := Ideal) v3 v4 v13 (ix2 r (0 : Fin 1))
      = max (v13 (ix2 r (0 : Fin 1)))
          ((Finset.univ : Finset (Fin 256)).fold max (Ideal.ofBits .f32 0xFF800000#32) (fun c => k0_pay11 (F := Ideal) v3 v4 (ix2 r c))) := by
  unfold k0_pay12
  show max (v13 (ix2 r (0 : Fin 1)))
      (shapeCast S1024x1 (multiReduction (F := Ideal) .maximumf [1] S1024 (k0_pay11 (F := Ideal) v3 v4) 0xFF800000#32
        Facts₀.reduces_S1024x256_S1024 (.inl rfl) rfl) Facts₀.shapeCasts_S1024_S1024x1 (ix2 r (0 : Fin 1))) = _
  rw [Cert.Columns.shapeCast_a_a1_apply]
  exact congrArg (max (v13 (ix2 r (0 : Fin 1))))
    (Cert.Columns.multiReduction_maximumf_row (k0_pay11 (F := Ideal) v3 v4) 0xFF800000#32
      Facts₀.reduces_S1024x256_S1024 (.inl rfl) rfl r)

/-- The rescaling factor of row `r`. -/
theorem pay13_apply (v3 : Vec Ideal S1024x1024 .bf16) (v4 : Vec Ideal S1x256x1024 .f32) (v13 v17 : Vec Ideal S1024x1 .f32) (r : Fin 1024) :
    k0_pay13 (F := Ideal) v3 v4 v13 v17 (ix2 r (0 : Fin 1))
      = Ideal.exp (v17 (ix2 r (0 : Fin 1)) - k0_pay12 (F := Ideal) v3 v4 v13 (ix2 r (0 : Fin 1))) := by
  unfold k0_pay13
  rfl

/-- The tile's weights. -/
theorem pay14_apply (v3 : Vec Ideal S1024x1024 .bf16) (v4 : Vec Ideal S1x256x1024 .f32) (v13 : Vec Ideal S1024x1 .f32) (r : Fin 1024) (c : Fin 256) :
    k0_pay14 (F := Ideal) v3 v4 v13 (ix2 r c)
      = Ideal.exp (k0_pay11 (F := Ideal) v3 v4 (ix2 r c) - k0_pay12 (F := Ideal) v3 v4 v13 (ix2 r (0 : Fin 1))) := by
  unfold k0_pay14
  show Ideal.exp (k0_pay11 (F := Ideal) v3 v4 (ix2 r c)
      - broadcastTo S1024x256 (k0_pay12 (F := Ideal) v3 v4 v13) Facts₀.broadcasts_S1024x1_S1024x256 (ix2 r c)) = _
  rw [Cert.Columns.broadcastTo_a1_ab_apply]

/-- The new running denominator of row `r`. -/
theorem pay15_apply (v3 : Vec Ideal S1024x1024 .bf16) (v4 : Vec Ideal S1x256x1024 .f32) (v13 v17 v23 : Vec Ideal S1024x1 .f32) (r : Fin 1024) :
    k0_pay15 (F := Ideal) v3 v4 v13 v17 v23 (ix2 r (0 : Fin 1))
      = k0_pay13 (F := Ideal) v3 v4 v13 v17 (ix2 r (0 : Fin 1)) * v23 (ix2 r (0 : Fin 1))
        + ∑ c : Fin 256, k0_pay14 (F := Ideal) v3 v4 v13 (ix2 r c) := by
  unfold k0_pay15
  show shapeCast S1024x1 (addf (mulf (k0_pay13 (F := Ideal) v3 v4 v13 v17) v23)
      (shapeCast S1024x1 (multiReduction (F := Ideal) .add [1] S1024 (k0_pay14 (F := Ideal) v3 v4 v13) 0x00000000#32
        Facts₀.reduces_S1024x256_S1024 (.inl rfl) rfl) Facts₀.shapeCasts_S1024_S1024x1))
      Facts₀.shapeCasts_S1024x1_S1024x1 (ix2 r (0 : Fin 1)) = _
  rw [shapeCast_self]
  show k0_pay13 (F := Ideal) v3 v4 v13 v17 (ix2 r (0 : Fin 1)) * v23 (ix2 r (0 : Fin 1))
      + shapeCast S1024x1 (multiReduction (F := Ideal) .add [1] S1024 (k0_pay14 (F := Ideal) v3 v4 v13) 0x00000000#32
        Facts₀.reduces_S1024x256_S1024 (.inl rfl) rfl) Facts₀.shapeCasts_S1024_S1024x1 (ix2 r (0 : Fin 1)) = _
  rw [Cert.Columns.shapeCast_a_a1_apply]
  have hsum := Ideal.multiReduction_add_single (k0_pay14 (F := Ideal) v3 v4 v13) 0x00000000#32
    Facts₀.reduces_S1024x256_S1024 (.inl rfl) rfl (ix1 r)
  refine congrArg (k0_pay13 (F := Ideal) v3 v4 v13 v17 (ix2 r (0 : Fin 1)) * v23 (ix2 r (0 : Fin 1)) + ·) (hsum.trans ?_)
  exact Finset.sum_congr rfl fun k _ =>
    congrArg (k0_pay14 (F := Ideal) v3 v4 v13) (Cert.Columns.lift_row Facts₀.reduces_S1024x256_S1024 r k)

/-- The new running numerator at row `r`, feature `d`. -/
theorem pay1_apply (v9 : FVec Ideal S256x1024 .bf16) (v19 : FVec Ideal S1024x1 .f32) (v22 : FVec Ideal S1024x256 .f32)
    (v31 : Vec Ideal S1024x1024 .f32) (r d : Fin 1024) :
    k0_pay1 (F := Ideal) v9 v19 v22 v31 (ix2 r d)
      = v19 (ix2 r (0 : Fin 1)) * v31 (ix2 r d) + ∑ c : Fin 256, v22 (ix2 r c) * v9 (ix2 c d) := by
  unfold k0_pay1
  show shapeCast S1024x1024 (addf (mulf (broadcastTo S1024x1024 v19 Facts₀.broadcasts_S1024x1_S1024x1024) v31)
      (matmul dot_S1024x256_S256x1024_S1024x1024_1_0_0_1_n_n none (truncf .bf16 v22 Facts₀.bitsLt_bf16_f32) v9
        (constant (F := Ideal) S1024x1024 .f32 0x00000000#32))) Facts₀.shapeCasts_S1024x1024_S1024x1024 (ix2 r d) = _
  rw [shapeCast_self]
  show broadcastTo S1024x1024 v19 Facts₀.broadcasts_S1024x1_S1024x1024 (ix2 r d) * v31 (ix2 r d)
      + matmul dot_S1024x256_S256x1024_S1024x1024_1_0_0_1_n_n none (truncf .bf16 v22 Facts₀.bitsLt_bf16_f32) v9
        (constant (F := Ideal) S1024x1024 .f32 0x00000000#32) (ix2 r d) = _
  rw [Cert.Columns.broadcastTo_a1_ab_apply, dot_values_apply]
  rfl

/-- The stored maximum is the computed one. -/
theorem pay2_eq (v16 : FVec Ideal S1024x1 .f32) : k0_pay2 (F := Ideal) v16 = v16 := by
  unfold k0_pay2
  exact shapeCast_self v16 _

/-- The value tile, with its unit batch axis dropped. -/
theorem pay10_apply (v7 : Vec Ideal S1x256x1024 .f32) (c : Fin 256) (d : Fin 1024) :
    k0_pay10 (F := Ideal) v7 (ix2 c d) = v7 (ix3 (0 : Fin 1) c d) := by
  unfold k0_pay10
  show shapeCast S256x1024 v7 Facts₀.shapeCasts_S1x256x1024_S256x1024 (ix2 c d) = _
  exact shapeCast_1ab_ab_apply v7 _ c d

/-- The query block, with its unit batch axis dropped. -/
theorem pay9_apply (v58 : Vec Ideal S1x1024x1024 .f32) (r d : Fin 1024) :
    k0_pay9 (F := Ideal) v58 (ix2 r d) = v58 (ix3 (0 : Fin 1) r d) := by
  unfold k0_pay9
  show shapeCast S1024x1024 (truncf (F := Ideal) (φ := .f32) .bf16 (shapeCast S1024x1024 v58 Facts₀.shapeCasts_S1x1024x1024_S1024x1024) Facts₀.bitsLt_bf16_f32)
      Facts₀.shapeCasts_S1024x1024_S1024x1024 (ix2 r d) = _
  rw [shapeCast_self]
  show shapeCast S1024x1024 v58 Facts₀.shapeCasts_S1x1024x1024_S1024x1024 (ix2 r d) = _
  exact shapeCast_1ab_ab_apply v58 _ r d

/-- The initial maximum: minus infinity in every row. -/
theorem pay6_apply (r : Fin 1024) : k0_pay6 (F := Ideal) (ix2 r (0 : Fin 1)) = Ideal.ofBits .f32 0xFF800000#32 := by
  unfold k0_pay6
  show shapeCast S1024x1 (broadcast S1024x1 (Ideal.ofBits .f32 0xFF800000#32)) Facts₀.shapeCasts_S1024x1_S1024x1 (ix2 r (0 : Fin 1)) = _
  rw [shapeCast_self]
  rfl

/-- The initial denominator: zero in every row. -/
theorem pay7_apply (r : Fin 1024) : k0_pay7 (F := Ideal) (ix2 r (0 : Fin 1)) = Ideal.ofBits .f32 0x00000000#32 := by
  unfold k0_pay7
  show shapeCast S1024x1 (broadcast S1024x1 (Ideal.ofBits .f32 0x00000000#32)) Facts₀.shapeCasts_S1024x1_S1024x1 (ix2 r (0 : Fin 1)) = _
  rw [shapeCast_self]
  rfl

/-- The initial numerator: zero everywhere. -/
theorem pay8_apply (r d : Fin 1024) : k0_pay8 (F := Ideal) (ix2 r d) = Ideal.ofBits .f32 0x00000000#32 := by
  unfold k0_pay8
  show shapeCast S1024x1024 (broadcast S1024x1024 (Ideal.ofBits .f32 0x00000000#32)) Facts₀.shapeCasts_S1024x1024_S1024x1024 (ix2 r d) = _
  rw [shapeCast_self]
  rfl

/-- The first half of the output rows: numerator over denominator, times the transposed weights. -/
theorem pay4_apply (v46 : Vec Ideal S1024x1024 .f32) (v48 : Vec Ideal S512x1024 .f32) (v49 : Vec Ideal S512x1 .f32) (r : Fin 512) (e : Fin 1024) :
    k0_pay4 (F := Ideal) v46 v48 v49 (ix3 (0 : Fin 1) r e)
      = ∑ d : Fin 1024, (v48 (ix2 r d) * Ideal.div (Ideal.ofBits .f32 0x3F800000#32) (v49 (ix2 r (0 : Fin 1)))) * v46 (ix2 e d) := by
  unfold k0_pay4 k0_pay3
  show shapeCast S1x512x1024
      (matmul dot_S512x1024_S1024x1024_S512x1024_1_1_0_0_n_n none
        (truncf .bf16 (mulf v48 (broadcastTo S512x1024
          (divf (broadcast S512x1 (Ideal.ofBits .f32 0x3F800000#32)) v49) Facts₀.broadcasts_S512x1_S512x1024)) Facts₀.bitsLt_bf16_f32)
        (truncf .bf16 v46 Facts₀.bitsLt_bf16_f32) (constant (F := Ideal) S512x1024 .f32 0x00000000#32))
      Facts₀.shapeCasts_S512x1024_S1x512x1024 (ix3 (0 : Fin 1) r e) = _
  rw [shapeCast_ab_1ab_apply, dot_proj_apply]
  refine Finset.sum_congr rfl fun d _ => ?_
  show (v48 (ix2 r d) * broadcastTo S512x1024
      (divf (broadcast S512x1 (Ideal.ofBits .f32 0x3F800000#32)) v49) Facts₀.broadcasts_S512x1_S512x1024 (ix2 r d)) * v46 (ix2 e d) = _
  rw [Cert.Columns.broadcastTo_a1_ab_apply]
  rfl

/-- The second half of the output rows. -/
theorem pay5_apply (v46 : Vec Ideal S1024x1024 .f32) (v59 : Vec Ideal S512x1024 .f32) (v60 : Vec Ideal S512x1 .f32) (r : Fin 512) (e : Fin 1024) :
    k0_pay5 (F := Ideal) v46 v59 v60 (ix3 (0 : Fin 1) r e)
      = ∑ d : Fin 1024, (v59 (ix2 r d) * Ideal.div (Ideal.ofBits .f32 0x3F800000#32) (v60 (ix2 r (0 : Fin 1)))) * v46 (ix2 e d) := by
  unfold k0_pay5 k0_pay3
  show shapeCast S1x512x1024
      (matmul dot_S512x1024_S1024x1024_S512x1024_1_1_0_0_n_n none
        (truncf .bf16 (mulf v59 (broadcastTo S512x1024
          (divf (broadcast S512x1 (Ideal.ofBits .f32 0x3F800000#32)) v60) Facts₀.broadcasts_S512x1_S512x1024)) Facts₀.bitsLt_bf16_f32)
        (truncf .bf16 v46 Facts₀.bitsLt_bf16_f32) (constant (F := Ideal) S512x1024 .f32 0x00000000#32))
      Facts₀.shapeCasts_S512x1024_S1x512x1024 (ix3 (0 : Fin 1) r e) = _
  rw [shapeCast_ab_1ab_apply, dot_proj_apply]
  refine Finset.sum_congr rfl fun d _ => ?_
  show (v59 (ix2 r d) * broadcastTo S512x1024
      (divf (broadcast S512x1 (Ideal.ofBits .f32 0x3F800000#32)) v60) Facts₀.broadcasts_S512x1_S512x1024 (ix2 r d)) * v46 (ix2 e d) = _
  rw [Cert.Columns.broadcastTo_a1_ab_apply]
  rfl

end Attn.Body

end
-- ==== Proof.LibSumSplit.lean ====
/-
  Sums regrouped by tiles, and a host sum over the last two axes.

  • An index below N = a · b is i · b + r for exactly one tile `i < a` and entry `r < b` (`tileIdx`), so in a
    commutative monoid a sum over `Fin N` is the sum over the tiles of the sums within each tile (`sum_tiles`): what
    joins a whole-axis sum with the same sum taken block by block.
  • A host sum of an `[a, n, m]` array of extended reals over its last two axes, read at batch `j`, is the initial
    value plus the double sum over the two reduced coordinates (`hostReduceAdd_last_two`): the indices that reduce to
    `j` are exactly the `(j, k, l)`.
-/
import Idealize.ShloMosaic.Lib.ValueIdx
import Idealize.ShloMosaic.PureOps.Ideal.Laws
import Idealize.ShloMosaic.PureOps.Reduce

noncomputable section

namespace Cert.PointDist

open Idealize.ShloMosaic Idealize.ShloMosaic.ValueIdx

/-- Entry `r` of tile `i`, of `a` tiles of `b` entries, as an index below `N = a · b`. -/
def tileIdx {a b N : ℕ} (h : a * b = N) (i : Fin a) (r : Fin b) : Fin N :=
  ⟨i.val * b + r.val, by
    have hi := i.isLt; have hr := r.isLt
    calc i.val * b + r.val < i.val * b + b := Nat.add_lt_add_left hr _
      _ = (i.val + 1) * b := (Nat.succ_mul _ _).symm
      _ ≤ a * b := Nat.mul_le_mul_right _ hi
      _ = N := h⟩

theorem tileIdx_val {a b N : ℕ} (h : a * b = N) (i : Fin a) (r : Fin b) : (tileIdx h i r).val = i.val * b + r.val := rfl

/-- A sum over `N = a · b` entries is the sum over the tiles of the sums within each tile. -/
theorem sum_tiles {M : Type*} [AddCommMonoid M] {a b N : ℕ} (h : a * b = N) (f : Fin N → M) :
    ∑ n, f n = ∑ i : Fin a, ∑ r : Fin b, f (tileIdx h i r) := by
  subst h
  rw [← finProdFinEquiv.sum_comp, Fintype.sum_prod_type]
  refine Finset.sum_congr rfl fun i _ => Finset.sum_congr rfl fun r _ => congrArg f (Fin.ext ?_)
  show r.val + b * i.val = i.val * b + r.val
  rw [Nat.mul_comm, Nat.add_comm]

/-- The host's sum of an `[a, n, m]` array over its last two axes, at batch `j`: the initial value plus the double
    sum over the two reduced coordinates. The indices that drop to `j` are exactly the `(j, n, m)`. -/
theorem hostReduceAdd_last_two {a n m : ℕ} (h : (⟨3, ![a, n, m]⟩ : Shape).ReducesTo [1, 2] (⟨1, ![a]⟩ : Shape))
    (x : (⟨3, ![a, n, m]⟩ : Shape).Idx → EReal) (init : EReal) (j : Fin a) :
    Ideal.hostReduceAdd h x init (ix1 j) = init + ∑ k : Fin n, ∑ l : Fin m, x (ix3 j k l) := by
  unfold Ideal.hostReduceAdd
  refine congrArg (init + ·) ?_
  rw [← Fintype.sum_prod_type']
  -- the one kept axis is the batch axis
  have hdrop : ∀ i : (⟨3, ![a, n, m]⟩ : Shape).Idx, ((h.drop i) 0).val = (i 0).val := fun i => rfl
  have hleft : ∀ i ∈ Finset.univ.filter (fun i => h.drop i = ix1 j), ix3 j (i 1) (i 2) = i := by
    intro i hi
    have hj := (Finset.mem_filter.1 hi).2
    have h0 : (i 0).val = j.val := by
      have := congrArg (fun y : (⟨1, ![a]⟩ : Shape).Idx => (y 0).val) hj
      exact (hdrop i).symm.trans this
    funext c; apply Fin.ext
    match c with
    | ⟨0, _⟩ => exact h0.symm
    | ⟨1, _⟩ => rfl
    | ⟨2, _⟩ => rfl
  refine Finset.sum_nbij' (fun i => (i 1, i 2)) (fun p => ix3 j p.1 p.2) ?_ ?_ ?_ ?_ ?_
  · intro i _; exact Finset.mem_univ _
  · intro p _
    refine Finset.mem_filter.2 ⟨Finset.mem_univ _, ?_⟩
    funext b; apply Fin.ext
    match b with
    | ⟨0, _⟩ => exact hdrop _
  · intro i hi; exact hleft i hi
  · intro p _; rfl
  · intro i hi; exact congrArg x (hleft i hi).symm

end Cert.PointDist

end
-- ==== Proof.SoftmaxLaws.lean ====
/-
  The laws that join the tile-by-tile evaluation of softmax attention with its one-shot evaluation, over the
  extended reals at finite scores and values.
-/
import proofs.«126389_j36077725286944_2_alg».proof.Proof.Spec
import proofs.«126389_j36077725286944_2_alg».proof.Proof.LibSumSplit

noncomputable section

namespace Attn

open Idealize.ShloMosaic

/-- A finite sum of real numbers, each read as an extended real, is the real sum read as an extended real. -/
theorem coe_sum {ι : Type*} (s : Finset ι) (f : ι → ℝ) : (∑ i ∈ s, (f i : EReal)) = ((∑ i ∈ s, f i : ℝ) : EReal) := by
  classical
  refine Finset.induction_on s ?_ ?_
  · simp
  · intro a s ha ih
    rw [Finset.sum_insert ha, Finset.sum_insert ha, ih, EReal.coe_add]

/-- A dot product of real vectors, scaled. -/
theorem dot_scale_coe {n : ℕ} (a b : Fin n → ℝ) (c : ℝ) :
    (∑ d, (a d : EReal) * (b d : EReal)) * (c : EReal) = (((∑ d, a d * b d) * c : ℝ) : EReal) := by
  have h : (∑ d, (a d : EReal) * (b d : EReal)) = ((∑ d, a d * b d : ℝ) : EReal) := by
    rw [← coe_sum]
    exact Finset.sum_congr rfl fun d _ => (EReal.coe_mul _ _).symm
  rw [h, ← EReal.coe_mul]

/-- The running maximum stays a real number: from minus infinity or a real, joined with a tile of real scores. -/
theorem max_fold_coe {n : ℕ} (hn : 0 < n) (m' : EReal) (hm' : m' = ⊥ ∨ ∃ μ' : ℝ, m' = (μ' : EReal)) (f : Fin n → ℝ) :
    ∃ μ : ℝ, max m' ((Finset.univ : Finset (Fin n)).fold max (⊥ : EReal) (fun c => (f c : EReal))) = (μ : EReal) := by
  -- the maximum over a finite set of reals is minus infinity for the empty set and a real otherwise
  have key : ∀ s : Finset (Fin n),
      (s = ∅ ∧ s.fold max (⊥ : EReal) (fun c => (f c : EReal)) = ⊥)
        ∨ ∃ r : ℝ, s.fold max (⊥ : EReal) (fun c => (f c : EReal)) = (r : EReal) := by
    intro s
    classical
    refine Finset.induction_on s ?_ ?_
    · exact Or.inl ⟨rfl, Finset.fold_empty⟩
    · intro a s ha ih
      refine Or.inr ?_
      rw [Finset.fold_insert ha]
      rcases ih with ⟨_, h⟩ | ⟨r, h⟩
      · exact ⟨f a, by rw [h, max_eq_left bot_le]⟩
      · exact ⟨max (f a) r, by rw [h, EReal.coe_strictMono.monotone.map_max]⟩
  haveI : Nonempty (Fin n) := ⟨⟨0, hn⟩⟩
  rcases key Finset.univ with ⟨h0, _⟩ | ⟨r, hr⟩
  · exact absurd h0 Finset.univ_nonempty.ne_empty
  · rw [hr]
    rcases hm' with rfl | ⟨μ', rfl⟩
    · exact ⟨r, max_eq_right bot_le⟩
    · exact ⟨max μ' r, by rw [EReal.coe_strictMono.monotone.map_max]⟩

/-- The exponential of a difference of two reals. -/
private theorem exp_sub_coe (a μ : ℝ) :
    Ideal.exp ((a : EReal) - (μ : EReal)) = ((Real.exp (a - μ) : ℝ) : EReal) := by
  rw [← EReal.coe_sub, Ideal.exp_coe]

/-- A sum of exponentials of shifted real scores is a real. -/
private theorem sum_exp_coe {n : ℕ} (f : Fin n → ℝ) (μ : ℝ) :
    ∑ c : Fin n, Ideal.exp ((f c : EReal) - (μ : EReal)) = ((∑ c : Fin n, Real.exp (f c - μ) : ℝ) : EReal) := by
  rw [← coe_sum]
  exact Finset.sum_congr rfl fun c _ => exp_sub_coe _ _

/-- A sum of exponentials of shifted real scores, each times a real value, is a real. -/
private theorem sum_exp_mul_coe {n : ℕ} (f g : Fin n → ℝ) (μ : ℝ) :
    ∑ c : Fin n, Ideal.exp ((f c : EReal) - (μ : EReal)) * (g c : EReal)
      = ((∑ c : Fin n, Real.exp (f c - μ) * g c : ℝ) : EReal) := by
  rw [← coe_sum]
  exact Finset.sum_congr rfl fun c _ => by rw [exp_sub_coe, ← EReal.coe_mul]

/-- First tile, denominator: the old maximum is minus infinity, so the rescaling factor is 0. -/
theorem l_first (s : ℕ → Fin 256 → ℝ) (μ : ℝ) :
    Ideal.exp (⊥ - (μ : EReal)) * 0 + ∑ c : Fin 256, Ideal.exp ((s 0 c : EReal) - (μ : EReal)) = (Lsum s 1 μ : EReal) := by
  rw [mul_zero, zero_add, sum_exp_coe (s 0) μ]
  congr 1
  unfold Lsum
  rw [Finset.sum_range_one]

/-- A later tile, denominator: rescale the old sum from shift `μ'` to shift `μ` and add the new tile. -/
theorem l_step (s : ℕ → Fin 256 → ℝ) (T : ℕ) (μ' μ : ℝ) :
    Ideal.exp ((μ' : EReal) - (μ : EReal)) * (Lsum s T μ' : EReal) + ∑ c : Fin 256, Ideal.exp ((s T c : EReal) - (μ : EReal))
      = (Lsum s (T + 1) μ : EReal) := by
  rw [exp_sub_coe, sum_exp_coe (s T) μ, ← EReal.coe_mul, ← EReal.coe_add]
  congr 1
  unfold Lsum
  rw [Finset.sum_range_succ, Finset.mul_sum]
  congr 1
  refine Finset.sum_congr rfl fun t _ => ?_
  rw [Finset.mul_sum]
  refine Finset.sum_congr rfl fun c _ => ?_
  have e : μ' - μ + (s t c - μ') = s t c - μ := by ring
  rw [← Real.exp_add, e]

/-- First tile, numerator. -/
theorem acc_first (s v : ℕ → Fin 256 → ℝ) (μ : ℝ) :
    Ideal.exp (⊥ - (μ : EReal)) * 0 + ∑ c : Fin 256, Ideal.exp ((s 0 c : EReal) - (μ : EReal)) * (v 0 c : EReal)
      = (Asum s v 1 μ : EReal) := by
  rw [mul_zero, zero_add, sum_exp_mul_coe (s 0) (v 0) μ]
  congr 1
  unfold Asum
  rw [Finset.sum_range_one]

/-- A later tile, numerator. -/
theorem acc_step (s v : ℕ → Fin 256 → ℝ) (T : ℕ) (μ' μ : ℝ) :
    Ideal.exp ((μ' : EReal) - (μ : EReal)) * (Asum s v T μ' : EReal)
        + ∑ c : Fin 256, Ideal.exp ((s T c : EReal) - (μ : EReal)) * (v T c : EReal)
      = (Asum s v (T + 1) μ : EReal) := by
  rw [exp_sub_coe, sum_exp_mul_coe (s T) (v T) μ, ← EReal.coe_mul, ← EReal.coe_add]
  congr 1
  unfold Asum
  rw [Finset.sum_range_succ, Finset.mul_sum]
  congr 1
  refine Finset.sum_congr rfl fun t _ => ?_
  rw [Finset.mul_sum]
  refine Finset.sum_congr rfl fun c _ => ?_
  have e : μ' - μ + (s t c - μ') = s t c - μ := by ring
  rw [← mul_assoc, ← Real.exp_add, e]

/-- A sum over the 8 tiles of 256 keys is the sum over all 2048 keys. -/
private theorem sum_kt (g : Fin 2048 → ℝ) :
    ∑ t ∈ Finset.range 8, ∑ c : Fin 256, g (kt t c) = ∑ j, g j := by
  rw [Cert.PointDist.sum_tiles (show 8 * 256 = 2048 from rfl) g, Finset.sum_range]
  refine Finset.sum_congr rfl fun i _ => Finset.sum_congr rfl fun c _ => congrArg g (Fin.ext ?_)
  rw [kt_val, Cert.PointDist.tileIdx_val, Nat.mod_eq_of_lt i.isLt]

/-- The sum of the exponentials of 2048 real scores is positive. -/
private theorem sum_exp_pos (s : Fin 2048 → ℝ) : 0 < ∑ j : Fin 2048, Real.exp (s j) :=
  Finset.sum_pos (fun j _ => Real.exp_pos _) ⟨⟨0, by norm_num⟩, Finset.mem_univ _⟩

/-- The denominator at shift `μ` is `exp (-μ)` times the denominator at shift 0. -/
private theorem sum_exp_shift (s : Fin 2048 → ℝ) (μ : ℝ) :
    ∑ j : Fin 2048, Real.exp (s j - μ) = Real.exp (-μ) * ∑ j : Fin 2048, Real.exp (s j) := by
  rw [Finset.mul_sum]
  refine Finset.sum_congr rfl fun j _ => ?_
  rw [sub_eq_add_neg, Real.exp_add, mul_comm]

/-- After all 8 tiles the numerator times the reciprocal of the denominator is the softmax-weighted mean, whatever the shift. -/
theorem kernel_final (s v : Fin 2048 → ℝ) (μ : ℝ) :
    (Asum (fun t c => s (kt t c)) (fun t c => v (kt t c)) 8 μ : EReal)
        * Ideal.div 1 (Lsum (fun t c => s (kt t c)) 8 μ : EReal)
      = (sm s v : EReal) := by
  have hA : Asum (fun t c => s (kt t c)) (fun t c => v (kt t c)) 8 μ
      = Real.exp (-μ) * ∑ j : Fin 2048, Real.exp (s j) * v j := by
    refine (sum_kt (fun j => Real.exp (s j - μ) * v j)).trans ?_
    rw [Finset.mul_sum]
    refine Finset.sum_congr rfl fun j _ => ?_
    rw [sub_eq_add_neg, Real.exp_add]; ring
  have hL : Lsum (fun t c => s (kt t c)) 8 μ = Real.exp (-μ) * ∑ j : Fin 2048, Real.exp (s j) :=
    (sum_kt (fun j => Real.exp (s j - μ))).trans (sum_exp_shift s μ)
  have hpos := sum_exp_pos s
  have hL0 : (∑ j : Fin 2048, Real.exp (s j)) ≠ 0 := hpos.ne'
  have hE0 : Real.exp (-μ) ≠ 0 := (Real.exp_pos _).ne'
  have hne : Real.exp (-μ) * ∑ j : Fin 2048, Real.exp (s j) ≠ 0 := mul_ne_zero hE0 hL0
  rw [hA, hL, Ideal.div_coe hne, one_mul, ← EReal.coe_mul]
  congr 1
  unfold sm
  field_simp

/-- The one-shot evaluation with any real shift: normalised weights times values, summed. -/
theorem ref_row (s v : Fin 2048 → ℝ) (μ : ℝ) :
    ∑ j : Fin 2048, Ideal.div (Ideal.exp ((s j : EReal) - (μ : EReal))) (0 + ∑ k : Fin 2048, Ideal.exp ((s k : EReal) - (μ : EReal)))
        * (v j : EReal)
      = (sm s v : EReal) := by
  have hL0 : (∑ j : Fin 2048, Real.exp (s j)) ≠ 0 := (sum_exp_pos s).ne'
  have hE0 : Real.exp (-μ) ≠ 0 := (Real.exp_pos _).ne'
  have hshift := sum_exp_shift s μ
  have hne : (∑ k : Fin 2048, Real.exp (s k - μ)) ≠ 0 := by rw [hshift]; exact mul_ne_zero hE0 hL0
  rw [zero_add, sum_exp_coe s μ]
  have hterm : ∀ j : Fin 2048,
      Ideal.div (Ideal.exp ((s j : EReal) - (μ : EReal))) ((∑ k : Fin 2048, Real.exp (s k - μ) : ℝ) : EReal) * (v j : EReal)
        = ((Real.exp (s j - μ) * (1 / ∑ k : Fin 2048, Real.exp (s k - μ)) * v j : ℝ) : EReal) := by
    intro j
    rw [Ideal.div_coe hne, exp_sub_coe, ← EReal.coe_mul, ← EReal.coe_mul]
  rw [Finset.sum_congr rfl fun j _ => hterm j, coe_sum]
  congr 1
  unfold sm
  rw [Finset.sum_div]
  refine Finset.sum_congr rfl fun j _ => ?_
  rw [hshift, sub_eq_add_neg, Real.exp_add]
  field_simp

end Attn

end
-- ==== Proof.Consts.lean ====
/-
  The float literals of the two programs as extended reals: 1/8 (the kernel's score scale), 64 and 1 (from which the
  reference computes the same scale as 1 / sqrt 64), and minus infinity (where both running maxima start).
-/
import Idealize.ShloMosaic.PureOps.Ideal
import Idealize.ShloMosaic.PureOps.Ideal.Laws

noncomputable section

namespace Attn

open Idealize.ShloMosaic

/-- Sign 0, exponent field 124, fraction 0: 2^23 · 2^(124 - 127 - 23) = 2^(-3). -/
theorem ofBits_eighth : Ideal.ofBits .f32 0x3E000000#32 = ((1 / 8 : ℝ) : EReal) := by
  simp [Ideal.ofBits, Ideal.ieee, -EReal.coe_mul]; norm_num

/-- Sign 1, exponent field all ones, fraction 0: minus infinity. -/
theorem ofBits_neg_inf : Ideal.ofBits .f32 0xFF800000#32 = (⊥ : EReal) := by
  simp [Ideal.ofBits, Ideal.ieee]

/-- Sign 0, exponent field 127, fraction 0: 2^23 · 2^(-23) = 1. -/
theorem ofBits_one : Ideal.ofBits .f32 0x3F800000#32 = (1 : EReal) := by
  simp [Ideal.ofBits, Ideal.ieee, -EReal.coe_mul]; norm_num

/-- Sign 0, exponent field 133, fraction 0: 2^23 · 2^(133 - 127 - 23) = 2^6. -/
theorem ofBits_sixty_four : Ideal.ofBits .f32 0x42800000#32 = ((64 : ℝ) : EReal) := by
  simp [Ideal.ofBits, Ideal.ieee, -EReal.coe_mul]; norm_num

/-- The reference's scale: 1 divided by the square root of 64 is 1/8. -/
theorem ref_scale :
    Ideal.div (Ideal.ofBits .f32 0x3F800000#32) (Ideal.sqrt (Ideal.ofBits .f32 0x42800000#32)) = ((1 / 8 : ℝ) : EReal) := by
  have h8 : Real.sqrt 64 = 8 := by
    rw [show (64 : ℝ) = 8 * 8 by norm_num]
    exact Real.sqrt_mul_self (by norm_num)
  have hn : ¬ ((64 : ℝ) < 0) := by norm_num
  rw [ofBits_one, ofBits_sixty_four, Ideal.sqrt_coe, if_neg hn, h8,
    Ideal.div_coe (show (8 : ℝ) ≠ 0 by norm_num), one_mul]

end Attn

end
-- ==== Proof.TileStep.lean ====
/-
  One key tile of the online softmax, row by row over the extended reals.

  With a block of real query rows `qR`, a tile of real key rows `kR` and value rows `vR`, the scores of row `r` are the
  reals `sc r c = (∑ d, qR r d · kR c d) / 8`. If the old running maximum of row `r` is minus infinity or a real, the
  new one is a real `μ r`; the new denominator is `exp (old max − μ r) · old + ∑ c, exp (sc r c − μ r)` and the new
  numerator at feature `d` is `exp (old max − μ r) · old + ∑ c, exp (sc r c − μ r) · vR c d`.
-/
import proofs.«126389_j36077725286944_2_alg».proof.Proof.BodyReads
import proofs.«126389_j36077725286944_2_alg».proof.Proof.SoftmaxLaws
import proofs.«126389_j36077725286944_2_alg».proof.Proof.Consts

noncomputable section

namespace Attn.Body

open Idealize.ShloMosaic Idealize.ShloMosaic.ValueIdx Cert.KernelIdeal Cert.KernelIdeal.Gen

/-- The real score of query row `r` against key row `c` of the tile. -/
def sc (qR : Fin 1024 → Fin 1024 → ℝ) (kR : Fin 256 → Fin 1024 → ℝ) (r : Fin 1024) (c : Fin 256) : ℝ :=
  (∑ d : Fin 1024, qR r d * kR c d) * (1 / 8)

variable (xs3 : Vec Ideal S1024x1024 .bf16) (x1 x2 : Vec Ideal S1x256x1024 .f32) (xs0 xs1 : Vec Ideal S1024x1 .f32)
  (xs2 : Vec Ideal S1024x1024 .f32)
  (qR : Fin 1024 → Fin 1024 → ℝ) (kR vR : Fin 256 → Fin 1024 → ℝ)

/-- The tile's scores are the real scores. -/
theorem score_real (hq : ∀ r d, xs3 (ix2 r d) = ((qR r d : ℝ) : EReal)) (hk : ∀ c d, x1 (ix3 (0 : Fin 1) c d) = ((kR c d : ℝ) : EReal))
    (r : Fin 1024) (c : Fin 256) : k0_pay11 (F := Ideal) xs3 x1 (ix2 r c) = ((sc qR kR r c : ℝ) : EReal) := by
  rw [pay11_apply, ofBits_eighth]
  simp only [hq, hk]
  exact dot_scale_coe _ _ _

/-- One tile step. -/
theorem tile_step (hq : ∀ r d, xs3 (ix2 r d) = ((qR r d : ℝ) : EReal)) (hk : ∀ c d, x1 (ix3 (0 : Fin 1) c d) = ((kR c d : ℝ) : EReal))
    (hv : ∀ c d, x2 (ix3 (0 : Fin 1) c d) = ((vR c d : ℝ) : EReal))
    (hm0 : ∀ r, xs0 (ix2 r (0 : Fin 1)) = ⊥ ∨ ∃ μ' : ℝ, xs0 (ix2 r (0 : Fin 1)) = ((μ' : ℝ) : EReal)) :
    ∃ μ : Fin 1024 → ℝ,
      (∀ r, k0_pay2 (F := Ideal) (k0_pay12 xs3 x1 xs0) (ix2 r (0 : Fin 1)) = ((μ r : ℝ) : EReal))
      ∧ (∀ r, k0_pay15 (F := Ideal) xs3 x1 xs0 xs0 xs1 (ix2 r (0 : Fin 1))
            = Ideal.exp (xs0 (ix2 r (0 : Fin 1)) - ((μ r : ℝ) : EReal)) * xs1 (ix2 r (0 : Fin 1))
              + ∑ c : Fin 256, Ideal.exp (((sc qR kR r c : ℝ) : EReal) - ((μ r : ℝ) : EReal)))
      ∧ (∀ r d, k0_pay1 (F := Ideal) (k0_pay10 x2) (k0_pay13 xs3 x1 xs0 xs0) (k0_pay14 xs3 x1 xs0) xs2 (ix2 r d)
            = Ideal.exp (xs0 (ix2 r (0 : Fin 1)) - ((μ r : ℝ) : EReal)) * xs2 (ix2 r d)
              + ∑ c : Fin 256, Ideal.exp (((sc qR kR r c : ℝ) : EReal) - ((μ r : ℝ) : EReal)) * ((vR c d : ℝ) : EReal)) := by
  have hs := score_real xs3 x1 qR kR hq hk
  have hmax : ∀ r, ∃ μr : ℝ, k0_pay12 (F := Ideal) xs3 x1 xs0 (ix2 r (0 : Fin 1)) = ((μr : ℝ) : EReal) := by
    intro r
    obtain ⟨μr, hμr⟩ := max_fold_coe (n := 256) (by decide) (xs0 (ix2 r (0 : Fin 1))) (hm0 r) (fun c => sc qR kR r c)
    refine ⟨μr, ?_⟩
    rw [pay12_apply, ofBits_neg_inf]
    simp only [hs]
    exact hμr
  choose μ hμ using hmax
  refine ⟨μ, fun r => ?_, fun r => ?_, fun r d => ?_⟩
  · rw [pay2_eq]; exact hμ r
  · rw [pay15_apply, pay13_apply, hμ r]
    simp only [pay14_apply, hs, hμ r]
  · rw [pay1_apply, pay13_apply, hμ r]
    simp only [pay14_apply, pay10_apply, hs, hμ r, hv]

end Attn.Body

end
-- ==== Proof.OutBlock.lean ====
/-
  What the last key tile stores into the output block: row `r`, column `e` holds
  `∑ d, (numerator r d · (1 / denominator r)) · W e d`, the numerator and denominator being the ones this same
  point has just stored; the two stores (rows 0–511 and 512–1023) are the same function of the row.
-/
import proofs.«126389_j36077725286944_2_alg».proof.Proof.Pieces
import proofs.«126389_j36077725286944_2_alg».proof.Proof.BodyReads

set_option maxRecDepth 16384

noncomputable section

namespace Cert.KernelIdeal.Gen

open Idealize.ShloMosaic Idealize.ShloMosaic.TcCoe Idealize.ShloMosaic.Tactic Idealize.ShloMosaic.ValueIdx
open Idealize.SL Idealize.SL.Sem Attn.Body

/-- The output block after the last key tile, entry by entry. -/
theorem outC4 (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S1024x1024 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .bf16) (harg11 : arg11.IsWhole) (hc0 : ¬cond0_0 i) (hc1 : cond0_1 i)
    (x0 : Vec Ideal S1x1024x1024 .f32) (x1 : Vec Ideal S1x256x1024 .f32) (x2 : Vec Ideal S1x256x1024 .f32) (x3 : Vec Ideal S1024x1024 .f32) (xs0 : Vec Ideal S1024x1 .f32) (xs1 : Vec Ideal S1024x1 .f32) (xs2 : Vec Ideal S1024x1024 .f32) (xs3 : Vec Ideal S1024x1024 .bf16) (r e : Fin 1024) :
    out0_C_4 (F := Ideal) c i arg3 harg3 arg4 harg4 arg5 harg5 arg6 harg6 arg7 harg7 arg8 harg8 arg9 harg9 arg10 harg10 arg11 harg11 hc0 hc1 x0 x1 x2 x3 xs0 xs1 xs2 xs3 (ix3 (0 : Fin 1) r e)
      = ∑ d : Fin 1024, ((k0_pay1 (F := Ideal) (k0_pay10 x2) (k0_pay13 xs3 x1 xs0 xs0) (k0_pay14 xs3 x1 xs0) xs2) (ix2 r d)
            * Ideal.div (Ideal.ofBits .f32 0x3F800000#32) ((k0_pay15 (F := Ideal) xs3 x1 xs0 xs0 xs1) (ix2 r (0 : Fin 1)))) * x3 (ix2 e d) := by
  unfold out0_C_4
  rw [View.read_writes_eq_canon _ _ _ (cover0_C_4 c i arg3 harg3 arg4 harg4 arg5 harg5 arg6 harg6 arg7 harg7 arg8 harg8 arg9 harg9 arg10 harg10 arg11 harg11 hc0 hc1 x0 x1 x2 x3 xs0 xs1 xs2 xs3)]
  have key : ∀ (G : S1x1024x1024.Idx → EReal) (L : List (View.Piece (Elt Ideal) S1x1024x1024 .f32)),
      L = (kernelRun0_C c i arg3 harg3 arg4 harg4 arg5 harg5 arg6 harg6 arg7 harg7 arg8 harg8 arg9 harg9 arg10 harg10 arg11 harg11 hc0 hc1 x0 x1 x2 x3 xs0 xs1 xs2 xs3).1 →
      (∀ p ∈ L, ∀ x : p.1.shape.Idx, p.2 x = G (p.1.emb x)) → View.canon L (ix3 (0 : Fin 1) r e) = G (ix3 (0 : Fin 1) r e) := by
    intro G L hL h
    exact View.canon_apply_of_pieces G L h _ (hL ▸ cover0_C_4 c i arg3 harg3 arg4 harg4 arg5 harg5 arg6 harg6 arg7 harg7 arg8 harg8 arg9 harg9 arg10 harg10 arg11 harg11 hc0 hc1 x0 x1 x2 x3 xs0 xs1 xs2 xs3 _)
  refine (key (fun y => ∑ d : Fin 1024, ((k0_pay1 (F := Ideal) (k0_pay10 x2) (k0_pay13 xs3 x1 xs0 xs0) (k0_pay14 xs3 x1 xs0) xs2) (ix2 (y 1) d)
            * Ideal.div (Ideal.ofBits .f32 0x3F800000#32) ((k0_pay15 (F := Ideal) xs3 x1 xs0 xs0 xs1) (ix2 (y 1) (0 : Fin 1)))) * x3 (ix2 (y 2) d)) _ rfl ?_)
  unfold kernelRun0_C
  dsimp only
  sl_unfold_words
  intro p hp x
  simp only [List.mem_cons, List.mem_singleton, List.not_mem_nil, or_false] at hp
  rcases hp with rfl | rfl
  · obtain ⟨u, r', e', rfl⟩ : ∃ (u : Fin 1) (r' : Fin 512) (e' : Fin 1024), x = ix3 u r' e' := ⟨x 0, x 1, x 2, eq_ix3 x⟩
    obtain rfl : u = 0 := Subsingleton.elim _ _
    refine (pay5_apply _ _ _ r' e').trans ?_
    simp only [View.readCov_eq_canon', View.readAt_eq_ld, harg4.read_unread, harg5.read_unread, harg6.read_unread, harg8.read_unread, harg9.read_unread, harg10.read_unread, harg11.read_unread, View.ld_unit_zero (S := S1024x1) hz2, View.ld_unit_zero (S := S1024x1024) hz2, View.ld_unit_zero (S := S1x256x1024) hz3]
    refine Finset.sum_congr rfl fun d _ => ?_
    rw [View.canon_unit_zero (S := S1024x1024) hz2, View.canon_unit_zero (S := S1024x1) hz2, View.ld_unit_zero (S := S1024x1024) hz2]
    refine congrArg₂ (· * ·) (congrArg₂ (· * ·) (congrArg _ ?_) (congrArg _ (congrArg _ ?_))) (congrArg _ ?_)
    · funext a; apply Fin.ext
      match a with
      | ⟨0, _⟩ => rfl
      | ⟨1, _⟩ => show 0 + 1 * d.val = d.val; omega
    · funext a; apply Fin.ext
      match a with
      | ⟨0, _⟩ => rfl
      | ⟨1, _⟩ => rfl
    · funext a; apply Fin.ext
      match a with
      | ⟨0, _⟩ => show e'.val = 0 + 1 * e'.val; omega
      | ⟨1, _⟩ => rfl
  · obtain ⟨u, r', e', rfl⟩ : ∃ (u : Fin 1) (r' : Fin 512) (e' : Fin 1024), x = ix3 u r' e' := ⟨x 0, x 1, x 2, eq_ix3 x⟩
    obtain rfl : u = 0 := Subsingleton.elim _ _
    refine (pay4_apply _ _ _ r' e').trans ?_
    simp only [View.readCov_eq_canon', View.readAt_eq_ld, harg4.read_unread, harg5.read_unread, harg6.read_unread, harg8.read_unread, harg9.read_unread, harg10.read_unread, harg11.read_unread, View.ld_unit_zero (S := S1024x1) hz2, View.ld_unit_zero (S := S1024x1024) hz2, View.ld_unit_zero (S := S1x256x1024) hz3]
    refine Finset.sum_congr rfl fun d _ => ?_
    rw [View.canon_unit_zero (S := S1024x1024) hz2, View.canon_unit_zero (S := S1024x1) hz2, View.ld_unit_zero (S := S1024x1024) hz2]
    refine congrArg₂ (· * ·) (congrArg₂ (· * ·) (congrArg _ ?_) (congrArg _ (congrArg _ ?_))) (congrArg _ ?_)
    · funext a; apply Fin.ext
      match a with
      | ⟨0, _⟩ => rfl
      | ⟨1, _⟩ => show 0 + 1 * d.val = d.val; omega
    · funext a; apply Fin.ext
      match a with
      | ⟨0, _⟩ => rfl
      | ⟨1, _⟩ => rfl
    · funext a; apply Fin.ext
      match a with
      | ⟨0, _⟩ => show e'.val = 0 + 1 * e'.val; omega
      | ⟨1, _⟩ => rfl

end Cert.KernelIdeal.Gen

end
-- ==== Proof.Invariant.lean ====
/-
  What the carried scratch buffers hold after every grid point, by induction along each group of eight key tiles.

  Point `t` works on batch `bOf t`, query rows `qrow t r` and key tile `t % 8`. After it, for every row `r` of the
  block there is a real number `μ r` (the running maximum) such that the maximum scratch holds `μ r`, the denominator
  scratch holds `Lsum` and the numerator scratch holds `Asum` of the row's scores and the values' columns over the
  first `t % 8 + 1` tiles at shift `μ r`, and the query scratch holds the rows of the query array. The first tile of
  a group establishes this from nothing (the old maximum is minus infinity, so the rescaling factor is 0); every
  later tile carries it on from the point before, by the addition law of the exponential.
-/
import proofs.«126389_j36077725286944_2_alg».proof.Proof.Pieces
import proofs.«126389_j36077725286944_2_alg».proof.Proof.TileStep
import proofs.«126389_j36077725286944_2_alg».proof.Proof.Blocks
import proofs.«126389_j36077725286944_2_alg».proof.Proof.OutBlock
import proofs.«126389_j36077725286944_2_alg».proof.Proof.SoftmaxLaws
import proofs.«126389_j36077725286944_2_alg».proof.Proof.Consts

set_option maxRecDepth 16384

noncomputable section

namespace Attn.Grid

open Idealize.ShloMosaic Idealize.ShloMosaic.ValueIdx Idealize.ShloMosaic.TcCoe Idealize.SL.Sem
open Cert.KernelIdeal Cert.KernelIdeal.Gen Attn.Body

variable (m : (ℓ : Loc nD τ sig) → Buf (Elt Ideal) ℓ) (c : Dev nD)

/-- The four argument arrays. -/
abbrev Qa : S4x2048x1024.Idx → EReal := m ((c : Thread nD τ).loc main_arg0)
abbrev Ka : S4x2048x1024.Idx → EReal := m ((c : Thread nD τ).loc main_arg1)
abbrev Va : S4x2048x1024.Idx → EReal := m ((c : Thread nD τ).loc main_arg2)
abbrev Wa : S1024x1024.Idx → EReal := m ((c : Thread nD τ).loc main_arg3)

/-- The scores of row `r` of point `t`'s query block, tile by tile. -/
def sRow (t : Fin cfg0.N) (r : Fin 1024) : ℕ → Fin 256 → ℝ :=
  fun t' k => Attn.score (Qa m c) (Ka m c) (bOf t) (qrow t r) (Attn.kt t' k)

/-- Column `d` of the values of point `t`'s batch, tile by tile. -/
def vCol (t : Fin cfg0.N) (d : Fin 1024) : ℕ → Fin 256 → ℝ :=
  fun t' k => Attn.vcol (Va m c) (bOf t) d (Attn.kt t' k)

/-- The real query rows, key rows and value rows of point `t`'s blocks. -/
def qR (t : Fin cfg0.N) (r d : Fin 1024) : ℝ := (Qa m c (ix3 (bOf t) (qrow t r) d)).toReal
def kR (t : Fin cfg0.N) (k : Fin 256) (d : Fin 1024) : ℝ := (Ka m c (ix3 (bOf t) (Attn.kt t.val k) d)).toReal
def vR (t : Fin cfg0.N) (k : Fin 256) (d : Fin 1024) : ℝ := (Va m c (ix3 (bOf t) (Attn.kt t.val k) d)).toReal

theorem kt_mod (n : ℕ) (k : Fin 256) : Attn.kt (n % 8) k = Attn.kt n k :=
  Fin.ext (by rw [Attn.kt_val, Attn.kt_val, Nat.mod_mod])

/-- The scores of the point's own tile are the row's scores at tile `t % 8`. -/
theorem sc_eq (t : Fin cfg0.N) (r : Fin 1024) (k : Fin 256) :
    sc (qR m c t) (kR m c t) r k = sRow m c t r (t.val % 8) k := by
  show Attn.score (Qa m c) (Ka m c) (bOf t) (qrow t r) (Attn.kt t.val k) = Attn.score (Qa m c) (Ka m c) (bOf t) (qrow t r) (Attn.kt (t.val % 8) k)
  rw [kt_mod]

theorem vR_eq (t : Fin cfg0.N) (k : Fin 256) (d : Fin 1024) : vR m c t k d = vCol m c t d (t.val % 8) k := by
  show Attn.vcol (Va m c) (bOf t) d (Attn.kt t.val k) = Attn.vcol (Va m c) (bOf t) d (Attn.kt (t.val % 8) k)
  rw [kt_mod]

/-- What the scratch buffers hold after the point at position `n`. -/
def Inv (n : ℕ) (hn : n < cfg0.N) : Prop :=
  ∃ μ : Fin 1024 → ℝ,
    (∀ r : Fin 1024, ((outsAt0 m c n hn).2.1 : Vec Ideal S1024x1 .f32) (ix2 r (0 : Fin 1)) = ((μ r : ℝ) : EReal))
    ∧ (∀ r : Fin 1024, ((outsAt0 m c n hn).2.2.1 : Vec Ideal S1024x1 .f32) (ix2 r (0 : Fin 1))
          = ((Attn.Lsum (sRow m c ⟨n, hn⟩ r) (n % 8 + 1) (μ r) : ℝ) : EReal))
    ∧ (∀ r d : Fin 1024, ((outsAt0 m c n hn).2.2.2.1 : Vec Ideal S1024x1024 .f32) (ix2 r d)
          = ((Attn.Asum (sRow m c ⟨n, hn⟩ r) (vCol m c ⟨n, hn⟩ d) (n % 8 + 1) (μ r) : ℝ) : EReal))
    ∧ (∀ r d : Fin 1024, ((outsAt0 m c n hn).2.2.2.2 : Vec Ideal S1024x1024 .bf16) (ix2 r d)
          = Qa m c (ix3 (bOf ⟨n, hn⟩) (qrow ⟨n, hn⟩ r) d))

variable (hQ : ∀ i, Qa m c i = (((Qa m c i).toReal : ℝ) : EReal)) (hK : ∀ i, Ka m c i = (((Ka m c i).toReal : ℝ) : EReal)) (hV : ∀ i, Va m c i = (((Va m c i).toReal : ℝ) : EReal))
include hQ hK hV

theorem hk_blk (t : Fin cfg0.N) (k : Fin 256) (d : Fin 1024) :
    (iblk m c 1 t : Vec Ideal S1x256x1024 .f32) (ix3 (0 : Fin 1) k d) = ((kR m c t k d : ℝ) : EReal) :=
  (iblk1_apply m c t k d).trans (hK _)

theorem hv_blk (t : Fin cfg0.N) (k : Fin 256) (d : Fin 1024) :
    (iblk m c 2 t : Vec Ideal S1x256x1024 .f32) (ix3 (0 : Fin 1) k d) = ((vR m c t k d : ℝ) : EReal) :=
  (iblk2_apply m c t k d).trans (hV _)

/-- The first key tile of a group. -/
theorem inv_first (t : Fin cfg0.N) (h0 : t.val % 8 = 0) : Inv m c t.val t.isLt := by
  have h1 : ¬t.val % 8 = 7 := by omega
  have e0 : ((outsAt0 m c t.val t.isLt).2.1 : Vec Ideal S1024x1 .f32)
      = k0_pay2 (F := Ideal) (k0_pay12 (k0_pay9 (iblk m c 0 t)) (iblk m c 1 t) (k0_pay6 (F := Ideal))) := by
    rw [outsAt0_A m c t h0 h1]; dsimp only; exact sA0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t)
  have e1 : ((outsAt0 m c t.val t.isLt).2.2.1 : Vec Ideal S1024x1 .f32)
      = k0_pay15 (F := Ideal) (k0_pay9 (iblk m c 0 t)) (iblk m c 1 t) (k0_pay6 (F := Ideal)) (k0_pay6 (F := Ideal)) (k0_pay7 (F := Ideal)) := by
    rw [outsAt0_A m c t h0 h1]; dsimp only; exact sA1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t)
  have e2 : ((outsAt0 m c t.val t.isLt).2.2.2.1 : Vec Ideal S1024x1024 .f32)
      = k0_pay1 (F := Ideal) (k0_pay10 (iblk m c 2 t)) (k0_pay13 (k0_pay9 (iblk m c 0 t)) (iblk m c 1 t) (k0_pay6 (F := Ideal)) (k0_pay6 (F := Ideal))) (k0_pay14 (k0_pay9 (iblk m c 0 t)) (iblk m c 1 t) (k0_pay6 (F := Ideal))) (k0_pay8 (F := Ideal)) := by
    rw [outsAt0_A m c t h0 h1]; dsimp only; exact sA2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t)
  have e3 : ((outsAt0 m c t.val t.isLt).2.2.2.2 : Vec Ideal S1024x1024 .bf16) = k0_pay9 (F := Ideal) (iblk m c 0 t) := by
    rw [outsAt0_A m c t h0 h1]; dsimp only; exact sA3 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t)
  have hq : ∀ r d : Fin 1024, k0_pay9 (F := Ideal) (iblk m c 0 t) (ix2 r d) = ((qR m c t r d : ℝ) : EReal) := fun r d =>
    (pay9_apply _ r d).trans ((iblk0_apply m c t r d).trans (hQ _))
  obtain ⟨μ, hμ0, hμ1, hμ2⟩ := tile_step (k0_pay9 (F := Ideal) (iblk m c 0 t)) (iblk m c 1 t) (iblk m c 2 t) (k0_pay6 (F := Ideal)) (k0_pay7 (F := Ideal))
    (k0_pay8 (F := Ideal)) (qR m c t) (kR m c t) (vR m c t) hq (hk_blk m c hQ hK hV t) (hv_blk m c hQ hK hV t)
    (fun r => Or.inl (by rw [pay6_apply, ofBits_neg_inf]))
  refine ⟨μ, fun r => ?_, fun r => ?_, fun r d => ?_, fun r d => ?_⟩
  · rw [e0]; exact hμ0 r
  · rw [e1, hμ1 r, pay6_apply, pay7_apply, ofBits_neg_inf, Ideal.ofBits_zero_f32]
    simp only [sc_eq]
    rw [h0]
    exact l_first (sRow m c t r) (μ r)
  · rw [e2, hμ2 r d, pay6_apply, pay8_apply, ofBits_neg_inf, Ideal.ofBits_zero_f32]
    simp only [sc_eq, vR_eq]
    rw [h0]
    exact acc_first (sRow m c t r) (vCol m c t d) (μ r)
  · rw [e3]; exact (pay9_apply _ r d).trans (iblk0_apply m c t r d)

omit hQ hK hV in
/-- At a later key tile the four scratch buffers are the tile step of what the point before left. -/
theorem later_eqs (t : Fin cfg0.N) (h0 : ¬t.val % 8 = 0) :
    ((outsAt0 m c t.val t.isLt).2.1 : Vec Ideal S1024x1 .f32) = k0_pay2 (F := Ideal) (k0_pay12 (outsAt0 m c (t.val - 1) (Nat.lt_of_le_of_lt (Nat.sub_le _ _) t.isLt)).2.2.2.2 (iblk m c 1 t) (outsAt0 m c (t.val - 1) (Nat.lt_of_le_of_lt (Nat.sub_le _ _) t.isLt)).2.1)
      ∧ ((outsAt0 m c t.val t.isLt).2.2.1 : Vec Ideal S1024x1 .f32) = k0_pay15 (F := Ideal) (outsAt0 m c (t.val - 1) (Nat.lt_of_le_of_lt (Nat.sub_le _ _) t.isLt)).2.2.2.2 (iblk m c 1 t) (outsAt0 m c (t.val - 1) (Nat.lt_of_le_of_lt (Nat.sub_le _ _) t.isLt)).2.1 (outsAt0 m c (t.val - 1) (Nat.lt_of_le_of_lt (Nat.sub_le _ _) t.isLt)).2.1 (outsAt0 m c (t.val - 1) (Nat.lt_of_le_of_lt (Nat.sub_le _ _) t.isLt)).2.2.1
      ∧ ((outsAt0 m c t.val t.isLt).2.2.2.1 : Vec Ideal S1024x1024 .f32)
          = k0_pay1 (F := Ideal) (k0_pay10 (iblk m c 2 t)) (k0_pay13 (outsAt0 m c (t.val - 1) (Nat.lt_of_le_of_lt (Nat.sub_le _ _) t.isLt)).2.2.2.2 (iblk m c 1 t) (outsAt0 m c (t.val - 1) (Nat.lt_of_le_of_lt (Nat.sub_le _ _) t.isLt)).2.1 (outsAt0 m c (t.val - 1) (Nat.lt_of_le_of_lt (Nat.sub_le _ _) t.isLt)).2.1) (k0_pay14 (outsAt0 m c (t.val - 1) (Nat.lt_of_le_of_lt (Nat.sub_le _ _) t.isLt)).2.2.2.2 (iblk m c 1 t) (outsAt0 m c (t.val - 1) (Nat.lt_of_le_of_lt (Nat.sub_le _ _) t.isLt)).2.1) (outsAt0 m c (t.val - 1) (Nat.lt_of_le_of_lt (Nat.sub_le _ _) t.isLt)).2.2.2.1
      ∧ ((outsAt0 m c t.val t.isLt).2.2.2.2 : Vec Ideal S1024x1024 .bf16) = (outsAt0 m c (t.val - 1) (Nat.lt_of_le_of_lt (Nat.sub_le _ _) t.isLt)).2.2.2.2 := by
  by_cases h1 : t.val % 8 = 7
  · refine ⟨?_, ?_, ?_, ?_⟩
    · rw [outsAt0_C m c t h0 h1]; dsimp only; exact sC0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2
    · rw [outsAt0_C m c t h0 h1]; dsimp only; exact sC1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2
    · rw [outsAt0_C m c t h0 h1]; dsimp only; exact sC2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2
    · rw [outsAt0_C m c t h0 h1]; dsimp only; rfl
  · refine ⟨?_, ?_, ?_, ?_⟩
    · rw [outsAt0_B m c t h0 h1]; dsimp only; exact sB0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2
    · rw [outsAt0_B m c t h0 h1]; dsimp only; exact sB1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2
    · rw [outsAt0_B m c t h0 h1]; dsimp only; exact sB2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2
    · rw [outsAt0_B m c t h0 h1]; dsimp only; rfl

omit hQ hK hV in
theorem bOf_prev (t : Fin cfg0.N) (h0 : ¬t.val % 8 = 0) : bOf (⟨t.val - 1, Nat.lt_of_le_of_lt (Nat.sub_le _ _) t.isLt⟩ : Fin cfg0.N) = bOf t :=
  Fin.ext (by show (t.val - 1) / 16 = t.val / 16; have := lt64 t; omega)

omit hQ hK hV in
theorem qrow_prev (t : Fin cfg0.N) (h0 : ¬t.val % 8 = 0) (r : Fin 1024) : qrow (⟨t.val - 1, Nat.lt_of_le_of_lt (Nat.sub_le _ _) t.isLt⟩ : Fin cfg0.N) r = qrow t r :=
  Fin.ext (by show ((t.val - 1) / 8) % 2 * 1024 + r.val = (t.val / 8) % 2 * 1024 + r.val; have := lt64 t; omega)

omit hQ hK hV in
theorem sRow_prev (t : Fin cfg0.N) (h0 : ¬t.val % 8 = 0) (r : Fin 1024) : sRow m c (⟨t.val - 1, Nat.lt_of_le_of_lt (Nat.sub_le _ _) t.isLt⟩ : Fin cfg0.N) r = sRow m c t r := by
  unfold sRow; rw [bOf_prev t h0, qrow_prev t h0 r]

omit hQ hK hV in
theorem vCol_prev (t : Fin cfg0.N) (h0 : ¬t.val % 8 = 0) (d : Fin 1024) : vCol m c (⟨t.val - 1, Nat.lt_of_le_of_lt (Nat.sub_le _ _) t.isLt⟩ : Fin cfg0.N) d = vCol m c t d := by
  unfold vCol; rw [bOf_prev t h0]

/-- A later key tile of a group, from the point before. -/
theorem inv_later (t : Fin cfg0.N) (h0 : ¬t.val % 8 = 0)
    (ih : Inv m c (t.val - 1) (Nat.lt_of_le_of_lt (Nat.sub_le _ _) t.isLt)) : Inv m c t.val t.isLt := by
  obtain ⟨e0, e1, e2, e3⟩ := later_eqs m c t h0
  obtain ⟨μ', i0, i1, i2, i3⟩ := ih
  have hT : (t.val - 1) % 8 + 1 = t.val % 8 := by omega
  have hq : ∀ r d : Fin 1024, ((outsAt0 m c (t.val - 1) (Nat.lt_of_le_of_lt (Nat.sub_le _ _) t.isLt)).2.2.2.2 : Vec Ideal S1024x1024 .bf16) (ix2 r d) = ((qR m c t r d : ℝ) : EReal) := fun r d =>
    (i3 r d).trans ((by rw [bOf_prev t h0, qrow_prev t h0 r] :
      Qa m c (ix3 (bOf (⟨t.val - 1, Nat.lt_of_le_of_lt (Nat.sub_le _ _) t.isLt⟩ : Fin cfg0.N)) (qrow (⟨t.val - 1, Nat.lt_of_le_of_lt (Nat.sub_le _ _) t.isLt⟩ : Fin cfg0.N) r) d) = Qa m c (ix3 (bOf t) (qrow t r) d)).trans (hQ _))
  obtain ⟨μ, hμ0, hμ1, hμ2⟩ := tile_step (outsAt0 m c (t.val - 1) (Nat.lt_of_le_of_lt (Nat.sub_le _ _) t.isLt)).2.2.2.2 (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1
    (qR m c t) (kR m c t) (vR m c t) hq (hk_blk m c hQ hK hV t) (hv_blk m c hQ hK hV t) (fun r => Or.inr ⟨μ' r, i0 r⟩)
  refine ⟨μ, fun r => ?_, fun r => ?_, fun r d => ?_, fun r d => ?_⟩
  · rw [e0]; exact hμ0 r
  · rw [e1, hμ1 r, i0 r, i1 r]
    simp only [sc_eq]
    rw [sRow_prev m c t h0 r, hT]
    exact l_step (sRow m c t r) (t.val % 8) (μ' r) (μ r)
  · rw [e2, hμ2 r d, i0 r, i2 r d]
    simp only [sc_eq, vR_eq]
    rw [sRow_prev m c t h0 r, vCol_prev m c t h0 d, hT]
    exact acc_step (sRow m c t r) (vCol m c t d) (t.val % 8) (μ' r) (μ r)
  · rw [e3]
    exact (i3 r d).trans (by rw [bOf_prev t h0, qrow_prev t h0 r])

/-- After every grid point. -/
theorem inv_all : ∀ (n : ℕ) (hn : n < cfg0.N), Inv m c n hn := by
  intro n
  induction n with
  | zero => exact fun hn => inv_first m c hQ hK hV ⟨0, hn⟩ rfl
  | succ n ih =>
    intro hn
    by_cases h0 : (n + 1) % 8 = 0
    · exact inv_first m c hQ hK hV ⟨n + 1, hn⟩ h0
    · exact inv_later m c hQ hK hV ⟨n + 1, hn⟩ h0 (ih (Nat.lt_of_succ_lt hn))

/-- The output block the last key tile of a group stores is `G` on the group's rows. -/
theorem out_last (t : Fin cfg0.N) (h1 : t.val % 8 = 7) (r e : Fin 1024) :
    ((outsAt0 m c t.val t.isLt).1 : Vec Ideal S1x1024x1024 .f32) (ix3 (0 : Fin 1) r e)
      = Attn.G (Qa m c) (Ka m c) (Va m c) (Wa m c) (ix3 (bOf t) (qrow t r) e) := by
  have h0 : ¬t.val % 8 = 0 := by omega
  obtain ⟨-, e1, e2, -⟩ := later_eqs m c t h0
  obtain ⟨μ, -, j1, j2, -⟩ := inv_all m c hQ hK hV t.val t.isLt
  have h8 : t.val % 8 + 1 = 8 := by omega
  rw [outsAt0_C m c t h0 h1]
  dsimp only
  refine (outC4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 r e).trans ?_
  show _ = ∑ d : Fin 1024, ((Attn.attn (Qa m c) (Ka m c) (Va m c) (bOf t) (qrow t r) d : ℝ) : EReal) * Wa m c (ix2 e d)
  refine Finset.sum_congr rfl fun d _ => ?_
  rw [← e2, ← e1, j1 r, j2 r d, ofBits_one, iblk3_apply m c t e d, h8]
  exact congrArg (· * Wa m c (ix2 e d))
    (kernel_final (fun j => Attn.score (Qa m c) (Ka m c) (bOf t) (qrow t r) j) (Attn.vcol (Va m c) (bOf t) d) (μ r))

end Attn.Grid

end
-- ==== Proof.KernelValue.lean ====
/-
  After the kernel's run the output array holds `G` of the four argument arrays, when queries, keys and values are
  real-valued: the output's block is written back only after the last key tile of each (batch, query half), what is
  written there is `G` on the block's rows, and those blocks tile the array.
-/
import proofs.«126389_j36077725286944_2_alg».proof.Proof.Gen.KernelIdeal.Value
import proofs.«126389_j36077725286944_2_alg».proof.Proof.Spec
import proofs.«126389_j36077725286944_2_alg».proof.Proof.Blocks
import proofs.«126389_j36077725286944_2_alg».proof.Proof.Invariant
import Idealize.ShloMosaic.Lib.Pipeline.Value

set_option maxRecDepth 16384

noncomputable section

namespace Attn.Grid

open Idealize.ShloMosaic Idealize.ShloMosaic.ValueIdx Idealize.ShloMosaic.TcCoe Idealize.SL.Sem Cert.KernelIdeal Cert.KernelIdeal.Gen
open Idealize.ShloMosaic.Pipeline (Dat)

variable (m : (ℓ : Loc nD τ sig) → Buf (Elt Ideal) ℓ)

/-- What a write-back of the output's block writes: `G` read through the block. -/
theorem flushed4_eq (c : Dev nD) (hQ : ∀ i, Qa m c i = (((Qa m c i).toReal : ℝ) : EReal)) (hK : ∀ i, Ka m c i = (((Ka m c i).toReal : ℝ) : EReal)) (hV : ∀ i, Va m c i = (((Va m c i).toReal : ℝ) : EReal)) (t : Fin cfg0.N) (hf : (cfg0.win 4).flush t = true) :
    (dats m 0 c).flushed 4 t
      = ((cfg0.win 4).blk t).view.read (Elt Ideal) (Attn.G (Qa m c) (Ka m c) (Va m c) (Wa m c)) := by
  have h1 : t.val % 8 = 7 := (flush4_iff t).mp hf
  rw [Cert.KernelIdeal.Value.flushed4]
  show ((outsAt0 m c t.val t.isLt).1 : Vec Ideal S1x1024x1024 .f32) = _
  funext y
  obtain ⟨u, r, e, rfl⟩ : ∃ (u : Fin 1) (r e : Fin 1024), y = ix3 u r e := ⟨y 0, y 1, y 2, eq_ix3 y⟩
  obtain rfl : u = 0 := Subsingleton.elim _ _
  exact (out_last m c hQ hK hV t h1 r e).trans (read_blk4 _ t r e).symm

/-- The output array after the last grid point. -/
theorem final4 (c : Dev nD)
    (hQ : ∀ i, (m ((c : Thread nD τ).loc main_arg0) : S4x2048x1024.Idx → EReal) i = ((((m ((c : Thread nD τ).loc main_arg0) : S4x2048x1024.Idx → EReal) i).toReal : ℝ) : EReal))
    (hK : ∀ i, (m ((c : Thread nD τ).loc main_arg1) : S4x2048x1024.Idx → EReal) i = ((((m ((c : Thread nD τ).loc main_arg1) : S4x2048x1024.Idx → EReal) i).toReal : ℝ) : EReal))
    (hV : ∀ i, (m ((c : Thread nD τ).loc main_arg2) : S4x2048x1024.Idx → EReal) i = ((((m ((c : Thread nD τ).loc main_arg2) : S4x2048x1024.Idx → EReal) i).toReal : ℝ) : EReal)) :
    (dats m 0 c).arrAt 4 cfg0.N
      = Attn.G (m ((c : Thread nD τ).loc main_arg0)) (m ((c : Thread nD τ).loc main_arg1)) (m ((c : Thread nD τ).loc main_arg2))
          (m ((c : Thread nD τ).loc main_arg3)) :=
  (dats m 0 c).arrAt_eq_of_cover 4 (Attn.G (Qa m c) (Ka m c) (Va m c) (Wa m c)) (flushed4_eq m c hQ hK hV) cover4

end Attn.Grid

end
-- ==== Proof.RefSide.lean ====
/-
  The reference computes `G`: read one operation at a time at an index, its scores are the scaled dot products, its
  row maximum is some real number (which the normalised weights do not depend on), its weights are the exponentials
  over their sum, and its last two contractions are the attention output and the product with the transposed weights.
-/
import proofs.«126389_j36077725286944_2_alg».proof.Proof.Gen.ReferenceIdeal.Read
import proofs.«126389_j36077725286944_2_alg».proof.Proof.Spec
import proofs.«126389_j36077725286944_2_alg».proof.Proof.SoftmaxLaws
import proofs.«126389_j36077725286944_2_alg».proof.Proof.Consts
import proofs.«126389_j36077725286944_2_alg».proof.Proof.LibColumns
import Idealize.ShloMosaic.Lib.ValueIdx
import Idealize.ShloMosaic.Lib.Pipeline.Value
import Idealize.ShloMosaic.PureOps.Ideal.Laws

noncomputable section

namespace Attn.Ref

open Idealize.ShloMosaic Idealize.ShloMosaic.ValueIdx Cert.ReferenceIdeal Cert.ReferenceIdeal.Gen

variable [Cert.ReferenceIdeal.Facts]

/-- The left operand's index of the score contraction at `(b, r, j)`, feature `k`: query row `r`. -/
theorem lidx2_eq (b : Fin 4) (r j : Fin 2048) (k : Fin 1024) :
    Read.lidx_main_v2 (ix3 b r j) k = ix3 b r k :=
  funext fun a => Fin.ext (by match a with | ⟨0, _⟩ => rfl | ⟨1, _⟩ => rfl | ⟨2, _⟩ => rfl)

/-- The right operand's index of the score contraction at `(b, r, j)`, feature `k`: key row `j`. -/
theorem ridx2_eq (b : Fin 4) (r j : Fin 2048) (k : Fin 1024) :
    Read.ridx_main_v2 (ix3 b r j) k = ix3 b j k :=
  funext fun a => Fin.ext (by match a with | ⟨0, _⟩ => rfl | ⟨1, _⟩ => rfl | ⟨2, _⟩ => rfl)

/-- The reference's scaled scores are the real scores: the dot product over the features times 1 / sqrt 64 = 1/8. -/
theorem score_eq (x0 x1 : (⟨S4x2048x1024, .f32⟩ : BufTy).Contents (Elt Ideal))
    (h0 : ∀ i, x0 i = (((x0 i : EReal).toReal : ℝ) : EReal)) (h1 : ∀ i, x1 i = (((x1 i : EReal).toReal : ℝ) : EReal))
    (b : Fin 4) (r j : Fin 2048) :
    Read.val_main_v4 (F := Ideal) x0 x1 (ix3 b r j) = ((Attn.score x0 x1 b r j : ℝ) : EReal) := by
  rw [Read.val_main_v4_apply, Read.val_main_v2_apply, Read.val_main_v3_apply, Read.val_main_v1_apply,
    Read.val_main_v0_apply, Read.val_main_cst_apply, Read.val_main_cst_0_apply]
  simp only [Ideal.mulf_def, Ideal.hostDivf_def, Ideal.hostUnary_sqrt_def, Ideal.ofBits_def]
  rw [Attn.ref_scale]
  have e : ∀ k : Fin 1024, x0 (Read.lidx_main_v2 (ix3 b r j) k) * x1 (Read.ridx_main_v2 (ix3 b r j) k)
      = (((x0 (ix3 b r k) : EReal).toReal : ℝ) : EReal) * (((x1 (ix3 b j k) : EReal).toReal : ℝ) : EReal) := by
    intro k
    rw [lidx2_eq, ridx2_eq, ← h0 (ix3 b r k), ← h1 (ix3 b j k)]
  rw [Finset.sum_congr rfl (fun k _ => e k)]
  exact Attn.dot_scale_coe _ _ _

/-- A row `(b, r)` of the reduced array with coordinate `k` put back on the reduced (last) axis is the index `(b, r, k)`. -/
theorem lift_last (h : S4x2048x2048.Reduces [2] S4x2048) (b : Fin 4) (r : Fin 2048) (k : Fin (S4x2048x2048.size 2)) :
    h.lift (ix2 b r) k = ix3 b r (⟨k.val, k.isLt⟩ : Fin 2048) := by
  funext c; apply Fin.ext
  fin_cases c <;> rfl

/-- A maximum-reduce of a `[4, 2048, 2048]` array along its last axis from the scalar constant `w`, read at row
    `(b, r)`: the fold of `max` over the row's 2048 entries from the extended real `w` denotes (`max` commutes and
    associates, so the order of the fold does not matter). -/
theorem hostReduce_max_last (y : FVec Ideal S4x2048x2048 .f32) (w : BitVec 32) (b : Fin 4) (r : Fin 2048) :
    Host.reduce FloatOps.maximumf y (constant (F := Ideal) S_ .f32 w) reducesTo_S4x2048x2048_S4x2048_d2 h_S_ (ix2 b r)
      = (Finset.univ : Finset (Fin 2048)).fold max (Ideal.ofBits .f32 w) (fun k => y (ix3 b r k)) := by
  have h : S4x2048x2048.Reduces [2] S4x2048 := by decide
  rw [Host.reduce_eq_fold_single FloatOps.maximumf y _ reducesTo_S4x2048x2048_S4x2048_d2 h h_S_]
  exact congrArg (fun f => Finset.fold max (Ideal.ofBits .f32 w) f (Finset.univ : Finset (Fin 2048)))
    (funext fun k => congrArg y (lift_last h b r k))

/-- The reference's maximum-reduce of the scores along the keys, read at row `(b, r)`. -/
theorem rowmax_fold (x0 x1 : (⟨S4x2048x1024, .f32⟩ : BufTy).Contents (Elt Ideal)) (b : Fin 4) (r : Fin 2048) :
    Read.val_main_v5 (F := Ideal) x0 x1 (ix2 b r)
      = (Finset.univ : Finset (Fin 2048)).fold max (Ideal.ofBits .f32 0xFF800000#32)
          (fun k => Read.val_main_v4 (F := Ideal) x0 x1 (ix3 b r k)) := by
  unfold Read.val_main_v5 Read.val_main_cst_1
  exact hostReduce_max_last _ _ b r

/-- The reference's row maximum (the reduce joined with minus infinity) is a real number. -/
theorem rowmax_real (x0 x1 : (⟨S4x2048x1024, .f32⟩ : BufTy).Contents (Elt Ideal))
    (h0 : ∀ i, x0 i = (((x0 i : EReal).toReal : ℝ) : EReal)) (h1 : ∀ i, x1 i = (((x1 i : EReal).toReal : ℝ) : EReal))
    (b : Fin 4) (r : Fin 2048) :
    ∃ μ : ℝ, Read.val_main_v7 (F := Ideal) x0 x1 (ix2 b r) = (μ : EReal) := by
  obtain ⟨μ, hμ⟩ := Attn.max_fold_coe (n := 2048) (by decide) (⊥ : EReal) (Or.inl rfl) (fun k => Attn.score x0 x1 b r k)
  refine ⟨μ, ?_⟩
  rw [Read.val_main_v7_apply, Read.val_main_v6_apply, Read.val_main_cst_2_apply, rowmax_fold]
  simp only [Ideal.maximumf_def, Ideal.ofBits_def]
  rw [Attn.ofBits_neg_inf, ← hμ]
  refine congrArg (fun f => max (⊥ : EReal) (Finset.fold max (⊥ : EReal) f (Finset.univ : Finset (Fin 2048)))) ?_
  exact funext fun k => score_eq x0 x1 h0 h1 b r k

/-- The row maximum broadcast back over the keys reads, at `(b, r, j)`, row `(b, r)`'s. -/
theorem idx9_eq (b : Fin 4) (r j : Fin 2048) : Read.idx_main_v8 (Read.idx_main_v9 (ix3 b r j)) = ix2 b r :=
  funext fun a => Fin.ext (by match a with | ⟨0, _⟩ => rfl | ⟨1, _⟩ => rfl)

/-- The row sum broadcast back over the keys reads, at `(b, r, j)`, row `(b, r)`'s. -/
theorem idx14_eq (b : Fin 4) (r j : Fin 2048) : Read.idx_main_v13 (Read.idx_main_v14 (ix3 b r j)) = ix2 b r :=
  funext fun a => Fin.ext (by match a with | ⟨0, _⟩ => rfl | ⟨1, _⟩ => rfl)

/-- The row sum's `k`-th summand at row `(b, r)` is the entry `(b, r, k)`. -/
theorem idx12_eq (b : Fin 4) (r k : Fin 2048) : Read.idx_main_v12 (ix2 b r) k = ix3 b r k :=
  funext fun a => Fin.ext (by match a with | ⟨0, _⟩ => rfl | ⟨1, _⟩ => rfl | ⟨2, _⟩ => rfl)

/-- The exponentials: of the score minus the row maximum `μ`. -/
theorem exp_eq (x0 x1 : (⟨S4x2048x1024, .f32⟩ : BufTy).Contents (Elt Ideal))
    (h0 : ∀ i, x0 i = (((x0 i : EReal).toReal : ℝ) : EReal)) (h1 : ∀ i, x1 i = (((x1 i : EReal).toReal : ℝ) : EReal))
    (b : Fin 4) (r : Fin 2048) (μ : ℝ) (hμ : Read.val_main_v7 (F := Ideal) x0 x1 (ix2 b r) = (μ : EReal)) (j : Fin 2048) :
    Read.val_main_v11 (F := Ideal) x0 x1 (ix3 b r j)
      = Ideal.exp (((Attn.score x0 x1 b r j : ℝ) : EReal) - (μ : EReal)) := by
  rw [Read.val_main_v11_apply, Read.val_main_v10_apply, Read.val_main_v9_apply, Read.val_main_v8_apply, idx9_eq, hμ,
    score_eq x0 x1 h0 h1, Ideal.hostUnary_exp_def, Ideal.subf_def]

/-- The normalised weights: each exponential over the row's sum of exponentials (which starts from the zero word). -/
theorem weight_eq (x0 x1 : (⟨S4x2048x1024, .f32⟩ : BufTy).Contents (Elt Ideal))
    (h0 : ∀ i, x0 i = (((x0 i : EReal).toReal : ℝ) : EReal)) (h1 : ∀ i, x1 i = (((x1 i : EReal).toReal : ℝ) : EReal))
    (b : Fin 4) (r : Fin 2048) (μ : ℝ) (hμ : Read.val_main_v7 (F := Ideal) x0 x1 (ix2 b r) = (μ : EReal)) (j : Fin 2048) :
    Read.val_main_v15 (F := Ideal) x0 x1 (ix3 b r j)
      = Ideal.div (Ideal.exp (((Attn.score x0 x1 b r j : ℝ) : EReal) - (μ : EReal)))
          (0 + ∑ k : Fin 2048, Ideal.exp (((Attn.score x0 x1 b r k : ℝ) : EReal) - (μ : EReal))) := by
  have es : ∑ k : Fin 2048, Read.val_main_v11 (F := Ideal) x0 x1 (Read.idx_main_v12 (ix2 b r) k)
      = ∑ k : Fin 2048, Ideal.exp (((Attn.score x0 x1 b r k : ℝ) : EReal) - (μ : EReal)) :=
    Finset.sum_congr rfl fun k _ => by rw [idx12_eq, exp_eq x0 x1 h0 h1 b r μ hμ k]
  rw [Read.val_main_v15_apply, Read.val_main_v14_apply, Read.val_main_v13_apply, idx14_eq, Read.val_main_v12_apply,
    Read.val_main_cst_3_apply, es, exp_eq x0 x1 h0 h1 b r μ hμ j, Ideal.hostDivf_def, Ideal.ofBits_def,
    Ideal.ofBits_zero_f32]

/-- The left operand's index of the attention contraction at `(b, r, d)`, key `k`: weight `(b, r, k)`. -/
theorem lidx16_eq (b : Fin 4) (r : Fin 2048) (d : Fin 1024) (k : Fin 2048) :
    Read.lidx_main_v16 (ix3 b r d) k = ix3 b r k :=
  funext fun a => Fin.ext (by match a with | ⟨0, _⟩ => rfl | ⟨1, _⟩ => rfl | ⟨2, _⟩ => rfl)

/-- The right operand's index of the attention contraction at `(b, r, d)`, key `k`: value `(b, k, d)`. -/
theorem ridx16_eq (b : Fin 4) (r : Fin 2048) (d : Fin 1024) (k : Fin 2048) :
    Read.ridx_main_v16 (ix3 b r d) k = ix3 b k d :=
  funext fun a => Fin.ext (by match a with | ⟨0, _⟩ => rfl | ⟨1, _⟩ => rfl | ⟨2, _⟩ => rfl)

/-- The weights times the values, summed over the keys, is row `r`'s attention output at feature `d`. -/
theorem attn_eq (x0 x1 x2 : (⟨S4x2048x1024, .f32⟩ : BufTy).Contents (Elt Ideal))
    (h0 : ∀ i, x0 i = (((x0 i : EReal).toReal : ℝ) : EReal)) (h1 : ∀ i, x1 i = (((x1 i : EReal).toReal : ℝ) : EReal))
    (h2 : ∀ i, x2 i = (((x2 i : EReal).toReal : ℝ) : EReal)) (b : Fin 4) (r : Fin 2048) (d : Fin 1024) :
    Read.val_main_v16 (F := Ideal) x0 x1 x2 (ix3 b r d) = ((Attn.attn x0 x1 x2 b r d : ℝ) : EReal) := by
  obtain ⟨μ, hμ⟩ := rowmax_real x0 x1 h0 h1 b r
  have e : ∀ k : Fin 2048,
      Read.val_main_v15 (F := Ideal) x0 x1 (Read.lidx_main_v16 (ix3 b r d) k) * x2 (Read.ridx_main_v16 (ix3 b r d) k)
        = Ideal.div (Ideal.exp (((Attn.score x0 x1 b r k : ℝ) : EReal) - (μ : EReal)))
            (0 + ∑ k' : Fin 2048, Ideal.exp (((Attn.score x0 x1 b r k' : ℝ) : EReal) - (μ : EReal)))
          * (((x2 (ix3 b k d) : EReal).toReal : ℝ) : EReal) := by
    intro k
    rw [lidx16_eq, ridx16_eq, weight_eq x0 x1 h0 h1 b r μ hμ k, ← h2 (ix3 b k d)]
  rw [Read.val_main_v16_apply, Finset.sum_congr rfl (fun k _ => e k)]
  exact Attn.ref_row (fun j => Attn.score x0 x1 b r j) (Attn.vcol x2 b d) μ

/-- The left operand's index of the projection at `(b, r, e)`, feature `d`: attention output `(b, r, d)`. -/
theorem lidx17_eq (b : Fin 4) (r : Fin 2048) (e d : Fin 1024) :
    Read.lidx_main_v17 (ix3 b r e) d = ix3 b r d :=
  funext fun a => Fin.ext (by match a with | ⟨0, _⟩ => rfl | ⟨1, _⟩ => rfl | ⟨2, _⟩ => rfl)

/-- The right operand's index of the projection at `(b, r, e)`, feature `d`: weight-matrix entry `(e, d)`. -/
theorem ridx17_eq (b : Fin 4) (r : Fin 2048) (e d : Fin 1024) :
    Read.ridx_main_v17 (ix3 b r e) d = ix2 e d :=
  funext fun a => Fin.ext (by match a with | ⟨0, _⟩ => rfl | ⟨1, _⟩ => rfl)

/-- At real-valued queries, keys and values the reference's result is `G` of its arguments. -/
theorem ref_eq (x0 x1 x2 : (⟨S4x2048x1024, .f32⟩ : BufTy).Contents (Elt Ideal)) (x3 : (⟨S1024x1024, .f32⟩ : BufTy).Contents (Elt Ideal))
    (h0 : ∀ i, x0 i = (((x0 i : EReal).toReal : ℝ) : EReal)) (h1 : ∀ i, x1 i = (((x1 i : EReal).toReal : ℝ) : EReal))
    (h2 : ∀ i, x2 i = (((x2 i : EReal).toReal : ℝ) : EReal)) :
    Cert.ReferenceIdeal.Read.val_main_v17 (F := Ideal) x0 x1 x2 x3 = Attn.G x0 x1 x2 x3 := by
  funext i
  obtain ⟨b, r, e, rfl⟩ : ∃ (b : Fin 4) (r : Fin 2048) (e : Fin 1024), i = ix3 b r e := ⟨i 0, i 1, i 2, eq_ix3 i⟩
  have hG : Attn.G x0 x1 x2 x3 (ix3 b r e)
      = ∑ d : Fin 1024, ((Attn.attn x0 x1 x2 b r d : ℝ) : EReal) * x3 (ix2 e d) := rfl
  rw [hG, Read.val_main_v17_apply]
  refine Finset.sum_congr rfl fun d _ => ?_
  rw [lidx17_eq, ridx17_eq, attn_eq x0 x1 x2 h0 h1 h2 b r d]

end Attn.Ref

end
-- ==== Proof.Finite.lean ====
/-
  Under the precondition every entry of the four argument arrays is a real number.
-/
import proofs.«126389_j36077725286944_2_alg».proof.Proof.Gen.Pre_finite_inputs
import Idealize.ShloMosaic.PureOps.Ideal
import Idealize.ShloMosaic.Lib.ReduceAll
import Idealize.ShloMosaic.Lib.ValueIdx

noncomputable section

namespace Attn

open Idealize.ShloMosaic

/-- The precondition (the absolute value of every entry is below plus infinity, for all four arrays) says every
    entry is the extended real of a real number. -/
theorem finite_of_pre [Cert.Pre_finite_inputs.Facts]
    (x0 x1 x2 : FVec Ideal Cert.Pre_finite_inputs.S4x2048x1024 .f32) (x3 : FVec Ideal Cert.Pre_finite_inputs.S1024x1024 .f32)
    (h : Cert.Pre_finite_inputs.fn (F := Ideal) x0 x1 x2 x3 = fun _ => 1#1) :
    (∀ i, x0 i = (((x0 i : EReal).toReal : ℝ) : EReal)) ∧ (∀ i, x1 i = (((x1 i : EReal).toReal : ℝ) : EReal))
      ∧ (∀ i, x2 i = (((x2 i : EReal).toReal : ℝ) : EReal)) ∧ (∀ i, x3 i = (((x3 i : EReal).toReal : ℝ) : EReal)) := by
  -- the literal compared against is plus infinity
  have htop : Ideal.ofBits .f32 0x7F800000#32 = (⊤ : EReal) := by simp [Ideal.ofBits, Ideal.ieee]
  -- one entry: if its absolute value is below plus infinity, it is neither infinity, so it is a real
  have elem : ∀ x : EReal, Ideal.cmp .olt (max x (-x)) (Ideal.ofBits .f32 0x7F800000#32) = 1#1 →
      x = ((x.toReal : ℝ) : EReal) := by
    intro x hx
    rw [htop] at hx
    induction x using EReal.rec
    · exfalso; simp [Ideal.cmp] at hx
    · rw [EReal.toReal_coe]
    · exfalso; simp [Ideal.cmp] at hx
  -- the rank-0 result has a single index
  haveI : Subsingleton Cert.Pre_finite_inputs.S_.Idx := ⟨fun a b => funext fun d => d.elim0⟩
  have h0 := congrFun h ValueIdx.ix0
  dsimp only [Cert.Pre_finite_inputs.fn, Cert.Pre_finite_inputs.fn_part1] at h0
  -- the conjunction of the four arrays' conditions, split
  obtain ⟨h012, h3⟩ := IntOp.andi_eq_one.1 h0
  obtain ⟨h01, h2⟩ := IntOp.andi_eq_one.1 h012
  obtain ⟨hh0, hh1⟩ := IntOp.andi_eq_one.1 h01
  -- each condition holds at every entry, and there says the entry is a real
  exact ⟨fun i => elem (x0 i) (Host.reduce_andi_all _ _ _ _ _ hh0 i),
    fun i => elem (x1 i) (Host.reduce_andi_all _ _ _ _ _ hh1 i),
    fun i => elem (x2 i) (Host.reduce_andi_all _ _ _ _ _ h2 i),
    fun i => elem (x3 i) (Host.reduce_andi_all _ _ _ _ _ h3 i)⟩

end Attn

end
-- ==== Proof.Assemble.lean ====
/-
  The five claims. Each of the three programs runs and keeps its argument arrays; the idealization rewrote nothing;
  and over the extended reals, from memories that agree on finite arguments, the flash-attention kernel and the
  softmax-attention reference both end with `Attn.G` of the arguments in their result arrays: softmax attention of
  queries, keys and values followed by the product with the transposed weight matrix.
-/
import proofs.«126389_j36077725286944_2_alg».proof.Defs
import proofs.«126389_j36077725286944_2_alg».proof.Proof.Gen.Kernel.Frame
import proofs.«126389_j36077725286944_2_alg».proof.Proof.Gen.KernelIdeal.Frame
import proofs.«126389_j36077725286944_2_alg».proof.Proof.Gen.KernelIdeal.Value
import proofs.«126389_j36077725286944_2_alg».proof.Proof.Gen.ReferenceIdeal.Run
import proofs.«126389_j36077725286944_2_alg».proof.Proof.Gen.ReferenceIdeal.Read
import proofs.«126389_j36077725286944_2_alg».proof.Proof.Gen.Pre_finite_inputs
import proofs.«126389_j36077725286944_2_alg».proof.Proof.KernelValue
import proofs.«126389_j36077725286944_2_alg».proof.Proof.RefSide
import proofs.«126389_j36077725286944_2_alg».proof.Proof.Finite

noncomputable section

open Idealize.ShloMosaic Idealize.ShloMosaic.TcCoe Idealize.SL.Sem

namespace Cert.Proof.AttnClaims

/-- The kernel as printed runs and keeps its arguments. -/
theorem frame_k : Cert.frame_Kernel := fun m ρ _ => Cert.Kernel.Gen.frame m ρ

/-- The kernel over the extended reals runs and keeps its arguments. -/
theorem frame_ki : Cert.frame_KernelIdeal := fun m ρ _ => Cert.KernelIdeal.Gen.frame m ρ

/-- The reference over the extended reals runs and keeps its arguments. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation, so there is nothing to preserve. -/
theorem preserves : Cert.preserves_Kernel_KernelIdeal := trivial

/-- Over the extended reals, at finite arguments, both programs end with `Attn.G` of the arguments: the kernel by
    its tile-by-tile evaluation (`Attn.Grid.final4`), the reference by its one-shot evaluation (`Attn.Ref.ref_eq`);
    the precondition makes every entry of queries, keys and values a real number (`Attn.finite_of_pre`). -/
theorem algebraic : Cert.algebraic_KernelIdeal_ReferenceIdeal := by
  intro m ρ m' ρ' hpre hagree
  have hfin := fun c => Attn.finite_of_pre _ _ _ _ (hpre c)
  refine ⟨fun c => Attn.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Attn.Grid.final4 m c (hfin c).1 (hfin c).2.1 (hfin c).2.2.1), (h c).2⟩)
      (Cert.KernelIdeal.Value.run_blocks m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2]
    refine (Cert.ReferenceIdeal.Read.val_main_v17_eq _ _ _ _).trans ?_
    exact Attn.Ref.ref_eq _ _ _ _ (hfin c).1 (hfin c).2.1 (hfin c).2.2.1

end Cert.Proof.AttnClaims

end
-- ==== Proof.lean ====
/- Flash attention with an output projection equals softmax attention followed by the same projection,
   over the extended reals at finite inputs. -/
import proofs.«126389_j36077725286944_2_alg».proof.Defs
import proofs.«126389_j36077725286944_2_alg».proof.Proof.Gen.Kernel
import proofs.«126389_j36077725286944_2_alg».proof.Proof.Gen.Kernel.Skeleton
import proofs.«126389_j36077725286944_2_alg».proof.Proof.Gen.Kernel.Launch
import proofs.«126389_j36077725286944_2_alg».proof.Proof.Gen.Kernel.Points
import proofs.«126389_j36077725286944_2_alg».proof.Proof.Gen.Kernel.Frame
import proofs.«126389_j36077725286944_2_alg».proof.Proof.Gen.KernelIdeal
import proofs.«126389_j36077725286944_2_alg».proof.Proof.Gen.KernelIdeal.Skeleton
import proofs.«126389_j36077725286944_2_alg».proof.Proof.Gen.KernelIdeal.Launch
import proofs.«126389_j36077725286944_2_alg».proof.Proof.Gen.KernelIdeal.Points
import proofs.«126389_j36077725286944_2_alg».proof.Proof.Gen.KernelIdeal.Frame
import proofs.«126389_j36077725286944_2_alg».proof.Proof.Gen.KernelIdeal.Value
import proofs.«126389_j36077725286944_2_alg».proof.Proof.Gen.ReferenceIdeal
import proofs.«126389_j36077725286944_2_alg».proof.Proof.Gen.ReferenceIdeal.Run
import proofs.«126389_j36077725286944_2_alg».proof.Proof.Gen.ReferenceIdeal.Read
import proofs.«126389_j36077725286944_2_alg».proof.Proof.Gen.Pre_finite_inputs
import proofs.«126389_j36077725286944_2_alg».proof.Proof.Spec
import proofs.«126389_j36077725286944_2_alg».proof.Proof.Assemble
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    AttnClaims.frame_k, AttnClaims.frame_ki, AttnClaims.frame_ri, AttnClaims.preserves, AttnClaims.algebraic⟩

end Cert.Proof

end
